-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4096 .f32) (main_arg1 : FVec F S4096x4096 .f32) (main_arg2 : FVec F S4096x4096 .f32) (main_arg3 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S512x2048 : Shape := ⟨2, ![512, 2048]⟩
abbrev S1x4096 : Shape := ⟨2, ![1, 4096]⟩
abbrev S1024x512 : Shape := ⟨2, ![1024, 512]⟩
abbrev S1x2048 : Shape := ⟨2, ![1, 2048]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .bf16⟩
  | .hbm, ⟨5, _⟩ => ⟨S1x4096, .f32⟩
  | .hbm, ⟨6, _⟩ => ⟨S2048x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1024x512, .f32⟩
  | .local _ .vmem, ⟨7, _⟩ => ⟨S1024x512, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .bf16 = 32 ∨ (Rect.block (s := S4096x4096) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S2048x4096.size a
  hwx1_0 : ∀ i : grid1.Coords, EltTy.bits .f32 = 32 ∨ (Rect.block (s := S2048x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S2048x4096.size a
  hwx1_3 : ∀ i : grid1.Coords, EltTy.bits .f32 = 32 ∨ (Rect.block (s := S2048x4096) S1024x2048.size (cc1_transform_3 i) (hinb1_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S2048x4096, .f32⟩
  | .hbm, ⟨11, _⟩ => ⟨S1x4096, .f32⟩
  | .hbm, ⟨12, _⟩ => ⟨S2048x4096, .f32⟩
  | .hbm, ⟨13, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Bits.MaskRegion.lean ====
/- Region 0: the masking stage. For every block (i, j) of the 8 x 2 grid the body stores
   select (mask ≠ 0) W 0 of the two input blocks into the output block. -/
import proofs.«148055_j68899865362757_2_alg».proof.Proof.Gen.Kernel.Launch
import proofs.«148055_j68899865362757_2_alg».proof.Proof.Gen.Kernel.Skeleton
import proofs.«148055_j68899865362757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mask

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body uses: the whole 512 x 2048 block. -/
abbrev whole : Rect S512x2048 := Rect.unit (s := S512x2048) ![0, 0] S512x2048.size inb_S512x2048_S512x2048_0_0

/-- The output block from the mask block xm and the weight block xw. -/
def out (xm xw : Vec F S512x2048 .f32) : Vec F S512x2048 .bf16 :=
  View.canon [⟨whole, k0_pay1 (View.ld xw whole) (View.ld xm whole)⟩]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => out (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = out (blk V c 0 t) (blk V c 1 t) := by dsimp only [dat]

/-- The mask window's staging buffer holds the mask block at every grid point, whether or not the
    block was fetched at that point: an input window is never written by the body, so its buffer
    still holds what the last fetch put there, which is the block of the point. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The same for the weight window. -/
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- The single store writes the whole 512 x 2048 rectangle, so every index of the output buffer
    lies in the rectangle of some (the only) piece. -/
theorem whole_covers (p : Vec F S512x2048 .bf16) (y : S512x2048.Idx) :
    ∃ pc ∈ ([⟨whole, p⟩] : List (View.Piece (Elt F) S512x2048 .bf16)), y ∈ pc.1.set :=
  View.cover_of_tiled [⟨whole, p⟩] S512x2048.size (by rfl) y

set_option maxHeartbeats 1000000 in
/-- The body's triple. Started with the mask buffer at xm, the weight buffer at xw and the output
    buffer at anything, the body loads the weight block, the mask block and (without using it) the
    output block, then stores the masked weight over the whole output buffer: it ends with the two
    inputs unchanged and the output at out xm xw. -/
theorem body_triple (c : Dev nD) (E : Set ℕ) (i : grid0.Coords)
    (am : Memref sig .tc .vmem S512x2048 .f32) (ham : am.IsWhole)
    (aw : Memref sig .tc .vmem S512x2048 .f32) (haw : aw.IsWhole)
    (ao : Memref sig .tc .vmem S512x2048 .bf16) (hao : ao.IsWhole)
    (xm xw : Vec F S512x2048 .f32) (K : PUnit → sProp 𝕄) :
    iprop(owns (c : Thread nD τ) am fullShare xm ∗ owns (c : Thread nD τ) aw fullShare xw
        ∗ (∃ d, owns (c : Thread nD τ) ao fullShare d)
        ∗ (iprop(owns (c : Thread nD τ) am fullShare xm ∗ owns (c : Thread nD τ) aw fullShare xw
            ∗ owns (c : Thread nD τ) ao fullShare (out xm xw)) -∗ K ⟨⟩))
      ⊢ wp frame (wpE (defs₀ (F := F)) Variants.none c none) E (cc0__premask_kernel i am ham aw haw ao hao) K := by
  simp only [cc0__premask_kernel_eq_skeleton]; unfold cc0__premask_kernel_skel
  unfold owns
  iintro ⟨⟨%fm, %hfm, Hm⟩, ⟨%fw, %hfw, Hw⟩, ⟨%d, %fo, -, Ho⟩, Hk⟩
  subst hfm hfw
  sl_exec
  sl_step
  iapply Hk
  isplitl [Hm]
  · iexists fm; isplitr; · ipureintro; rfl
    iexact Hm
  isplitl [Hw]
  · iexists fw; isplitr; · ipureintro; rfl
    iexact Hw
  iexists _; isplitr
  swap; · iexact Ho
  ipureintro
  exact View.read_writes_eq_canon _ _ _ (whole_covers _)

/-- What the pipeline hands the body at point t: the invariant, what the core owes, and the three
    windows' current staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What the body hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at a generic point: the two input buffers hold their blocks, so the triple applies;
    the invariant and the debt are constant in the point and pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Hd, ⟨%d0, Hm⟩, ⟨%d1, Hw⟩, ⟨%d2, Ho⟩⟩
  iapply (body_triple c Set.univ (grid0.coords t) _ _ _ _ _ _ (blk V c 0 t) (blk V c 1 t) _)
  isplitl [Hm]; · iexact Hm
  isplitl [Hw]; · iexact Hw
  isplitl [Ho]; · iexists _; iexact Ho
  iintro ⟨Hm, Hw, Ho⟩
  isplitl [HΦ]; · iexact HΦ
  isplitl [Hd]; · iexact Hd
  isplitl [Hm]; · iexact Hm
  isplitl [Hw]; · iexact Hw
  iexact Ho

theorem body_obligation (c : Dev nD) : BodyObligation (dat (F := F) V c) (defs₀ (F := F)) Variants.none () Set.univ := fun t => by
  rw [bigSep_W0, bigSep_W0]
  exact sound_body V c t

end Cert.Kernel.Mask

end
-- ==== Proof.Bits.AccShared.lean ====
/- Region 1, the accumulating product over the grid (i, j, k): what its three control cases share.
   The blocks the windows stage, the two conditions of the body (k = 0: the scratch is reset; k = 7: the
   output block is stored) in closed form over the 32 grid points, the points where the output window
   is left alone, and the scoped buffers the region does not stage. -/
import proofs.«148055_j68899865362757_2_alg».proof.Proof.Gen.Kernel.Launch
import proofs.«148055_j68899865362757_2_alg».proof.Proof.Gen.Kernel.Skeleton
import proofs.«148055_j68899865362757_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or the block index did not move since the last fetch: window 0 (the x block at (i, k)). -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Window 1 (the masked-weight block at (k, j)). -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Window 2 (the bias row's block at (0, j), fetched only when j changes). -/
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- The body resets the scratch: the condition k = 0 as the kernel computes it from the grid coordinates. -/
abbrev isFirst (i : grid1.Coords) : Prop :=
  (Scalar.cmpi .ne (Scalar.extui (Scalar.cmpi .eq (BitVec.ofNat 32 (i 2).val) 0#32)) 0#32) = 1#1
/-- It holds exactly at the points whose position is 0 modulo 8. -/
theorem isFirst_iff : ∀ t : Fin cfg1.N, isFirst (grid1.coords t) ↔ t.val % 8 = 0 :=
  (by decide +kernel : ∀ t : Fin grid1.N, isFirst (grid1.coords t) ↔ t.val % 8 = 0)

/-- The body stores the output block: the condition k = 7. -/
abbrev isLast (i : grid1.Coords) : Prop := k1_cond2 i = 1#1
/-- It holds exactly at the points whose position is 7 modulo 8. -/
theorem isLast_iff : ∀ t : Fin cfg1.N, isLast (grid1.coords t) ↔ t.val % 8 = 7 :=
  (by decide +kernel : ∀ t : Fin grid1.N, isLast (grid1.coords t) ↔ t.val % 8 = 7)

/-! ## Where the windows are left alone -/

theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Away from k = 7 the body stores nothing into the output block and the pipeline does not write it back. -/
theorem idle_out : ∀ t : Fin cfg1.N, ¬isLast (grid1.coords t) → cfg1.idle 3 (grid1.coords t) = true := by decide +kernel
theorem noflush_out : ∀ t : Fin cfg1.N, ¬isLast (grid1.coords t) → (cfg1.win 3).flush t = false := by decide +kernel
/-- At k = 7 it does. -/
theorem live_out : ∀ t : Fin cfg1.N, isLast (grid1.coords t) → cfg1.idle 3 (grid1.coords t) = false := by decide +kernel

/-! ## The memrefs the body is called with -/

/-- One staging buffer of the output window, through which its contents are stated. -/
abbrev outView : View sig .tc .vmem S1024x2048 .f32 := (Memref.whole cc1_stg3_0 : Memref sig .tc .vmem S1024x2048 .f32).view
abbrev mx (t : Fin cfg1.N) : Memref sig .tc .vmem S1024x512 .f32 := win1_0.stage (cfg1.slots t 0)
abbrev hx (t : Fin cfg1.N) : (mx t).IsWhole := hstage1_0 ((cfg1.slots t 0).cast nbuf1_0)
abbrev mw (t : Fin cfg1.N) : Memref sig .tc .vmem S512x2048 .bf16 := win1_1.stage (cfg1.slots t 1)
abbrev hw (t : Fin cfg1.N) : (mw t).IsWhole := hstage1_1 ((cfg1.slots t 1).cast nbuf1_1)
abbrev mb (t : Fin cfg1.N) : Memref sig .tc .vmem S1x2048 .f32 := win1_2.stage (cfg1.slots t 2)
abbrev hb (t : Fin cfg1.N) : (mb t).IsWhole := hstage1_2 ((cfg1.slots t 2).cast nbuf1_2)
abbrev mo (t : Fin cfg1.N) : Memref sig .tc .vmem S1024x2048 .f32 := win1_3.stage (cfg1.slots t 3)
abbrev ho (t : Fin cfg1.N) : (mo t).IsWhole := hstage1_3 ((cfg1.slots t 3).cast nbuf1_3)
/-- The scratch accumulator: a whole scoped buffer of the kernel's own. -/
abbrev accM : Memref sig .tc .vmem S1024x2048 .f32 := Memref.whole cc1_scratch0
abbrev accView : View sig .tc .vmem S1024x2048 .f32 := accM.view

/-! ## The scoped buffers this region does not stage -/

/-- The scoped buffers region 1 does not stage — region 0's six staging buffers, each whole at some contents,
    and the scratch, here at the state `P` — beside the generator register at some state. -/
def restWith (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P) ∗ (∃ r, prngReg c r))

/-- The class invariant of this region spelled out: the scratch at some contents. -/
theorem PhiA_eq (c : Dev nD) :
    (Pipeline.ΦA spec1 c : sProp 𝕄) = restWith (F := F) c iprop(∃ d, owns (c : Thread nD τ) accM fullShare d) := by
  unfold Pipeline.ΦA restWith; rw [scopedRest1_eq]; simp only [accM, owns_whole]; try rfl

end Cert.Kernel.Acc

end
-- ==== Proof.Bits.AccRuns.lean ====
/- Region 1: the body run whole, once per control case. At k = 0 the scratch is reset to zero and then
   receives the first block product; at 0 < k < 7 it receives the next product on top of what the point before
   left; at k = 7 it does the same and the output block is stored as the scratch plus the bias row. Each run
   finds, as its witness, the list of pieces the body's stores leave in the output block and in the scratch. -/
import proofs.«148055_j68899865362757_2_alg».proof.Proof.Bits.AccShared

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reset point (k = 0, not k = 7). The three input blocks are read and handed back; the output block, which
    the body does not touch here, is handed back as it came (`xi`); the scratch, at anything before, ends with the
    pieces `LS` written. -/
noncomputable def runReset (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) :
    Σ' (LO : List (View.Piece (Elt F) S1024x2048 .f32)), { LS : List (View.Piece (Elt F) S1024x2048 .f32) //
      ∀ (xi : Vec F S1024x2048 .f32) (E : Set ℕ) (K : PUnit → sProp 𝕄),
        iprop(owns (c : Thread nD τ) ax fullShare x0 ∗ owns (c : Thread nD τ) aw fullShare x1 ∗ owns (c : Thread nD τ) ab fullShare x2 ∗ owns (c : Thread nD τ) ao fullShare xi ∗ (∃ d, owns (c : Thread nD τ) acm fullShare d)
            ∗ (iprop(owns (c : Thread nD τ) ax fullShare x0 ∗ owns (c : Thread nD τ) aw fullShare x1 ∗ owns (c : Thread nD τ) ab fullShare x2 ∗ owns (c : Thread nD τ) ao fullShare xi ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := hax.eq_unread hf0; obtain rfl := haw.eq_unread hf1; obtain rfl := hab.eq_unread hf2; obtain rfl := hao.eq_unread hf3
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]
    · iexists _; isplitr; · ipureintro; exact hao.read_unread _
      iexact H3
    iexists _; iexact HS

set_option maxHeartbeats 1000000 in
/-- A middle point (neither k = 0 nor k = 7): as the reset point, but the scratch comes at the contents `xs` the
    point before left. -/
noncomputable def runStep (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) :
    Σ' (LO : List (View.Piece (Elt F) S1024x2048 .f32)), { LS : List (View.Piece (Elt F) S1024x2048 .f32) //
      ∀ (xi : Vec F S1024x2048 .f32) (E : Set ℕ) (K : PUnit → sProp 𝕄),
        iprop(owns (c : Thread nD τ) ax fullShare x0 ∗ owns (c : Thread nD τ) aw fullShare x1 ∗ owns (c : Thread nD τ) ab fullShare x2 ∗ owns (c : Thread nD τ) ao fullShare xi ∗ owns (c : Thread nD τ) acm fullShare xs
            ∗ (iprop(owns (c : Thread nD τ) ax fullShare x0 ∗ owns (c : Thread nD τ) aw fullShare x1 ∗ owns (c : Thread nD τ) ab fullShare x2 ∗ owns (c : Thread nD τ) ao fullShare xi ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := hax.eq_unread hf0; obtain rfl := haw.eq_unread hf1; obtain rfl := hab.eq_unread hf2; obtain rfl := hao.eq_unread hf3; obtain rfl := hacm.eq_unread hfs
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]
    · iexists _; isplitr; · ipureintro; exact hao.read_unread _
      iexact H3
    iexists _; iexact HS

set_option maxHeartbeats 1000000 in
/-- The store point (k = 7, not k = 0): the scratch comes at `xs` and ends with `LS` written; the output block, at
    anything before, ends with the pieces `LO` written. -/
noncomputable def runStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) ax fullShare x0 ∗ owns (c : Thread nD τ) aw fullShare x1 ∗ owns (c : Thread nD τ) ab fullShare x2 ∗ (∃ d, owns (c : Thread nD τ) ao fullShare d) ∗ owns (c : Thread nD τ) acm fullShare xs
            ∗ (iprop(owns (c : Thread nD τ) ax fullShare x0 ∗ owns (c : Thread nD τ) aw fullShare x1 ∗ owns (c : Thread nD τ) ab fullShare x2 ∗ (∃ f, ao.view.loc (c : Thread nD τ) ↦[ao.view.set]{fullShare} ao.view.writes (Elt F) f LO) ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := hax.eq_unread hf0; obtain rfl := haw.eq_unread hf1; obtain rfl := hab.eq_unread hf2; obtain rfl := hacm.eq_unread hfs
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]; · iexists _; iexact H3
    iexists _; iexact HS

end Cert.Kernel.Acc

end
-- ==== Proof.Bits.AccRegion.lean ====
/- Region 1, the accumulating product: what the scratch and the output block hold after each grid point, the
   region's invariant (the scratch at what the point before left), its proof data and the body obligation.
   Position n of the grid is (i, j, k) with k = n mod 8: the scratch is reset at k = 0, receives one block product
   at every point, and at k = 7 the output block is stored as the scratch plus the bias row. -/
import proofs.«148055_j68899865362757_2_alg».proof.Proof.Bits.AccRuns

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The scratch after a reset point: its pieces read back. -/
def accReset (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) : Vec F S1024x2048 .f32 :=
  accView.read (Elt F) (accView.writes (Elt F) accView.junk (runReset c i ax hax aw haw ab hab ao hao acm hacm h0 h1 x0 x1 x2).2.1)

/-- Those pieces tile the scratch, so they cover it. -/
theorem accReset_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) (y : S1024x2048.Idx) :
    ∃ pc ∈ (runReset c i ax hax aw haw ab hab ao hao acm hacm h0 h1 x0 x1 x2).2.1, y ∈ pc.1.set :=
  View.cover_of_tiledL (runReset c i ax hax aw haw ab hab ao hao acm hacm h0 h1 x0 x1 x2).2.1 S1024x2048.size (by sl_kernel_rfl) y

/-- The scratch after a middle point, from what the point before left (`xs`). -/
def accStep (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) : Vec F S1024x2048 .f32 :=
  accView.read (Elt F) (accView.writes (Elt F) accView.junk (runStep c i ax hax aw haw ab hab ao hao acm hacm h0 h1 x0 x1 x2 xs).2.1)

theorem accStep_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) (y : S1024x2048.Idx) :
    ∃ pc ∈ (runStep c i ax hax aw haw ab hab ao hao acm hacm h0 h1 x0 x1 x2 xs).2.1, y ∈ pc.1.set :=
  View.cover_of_tiledL (runStep c i ax hax aw haw ab hab ao hao acm hacm h0 h1 x0 x1 x2 xs).2.1 S1024x2048.size (by sl_kernel_rfl) y

/-- The scratch after the store point. -/
def accStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) : Vec F S1024x2048 .f32 :=
  accView.read (Elt F) (accView.writes (Elt F) accView.junk (runStore c i ax hax aw haw ab hab ao hao acm hacm h0 h1 x0 x1 x2 xs).2.1)

theorem accStore_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) (y : S1024x2048.Idx) :
    ∃ pc ∈ (runStore c i ax hax aw haw ab hab ao hao acm hacm h0 h1 x0 x1 x2 xs).2.1, y ∈ pc.1.set :=
  View.cover_of_tiledL (runStore c i ax hax aw haw ab hab ao hao acm hacm h0 h1 x0 x1 x2 xs).2.1 S1024x2048.size (by sl_kernel_rfl) y

/-- The output block after the store point. -/
def outStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) : Vec F S1024x2048 .f32 :=
  outView.read (Elt F) (outView.writes (Elt F) outView.junk (runStore c i ax hax aw haw ab hab ao hao acm hacm h0 h1 x0 x1 x2 xs).1)

theorem outStore_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) (y : S1024x2048.Idx) :
    ∃ pc ∈ (runStore c i ax hax aw haw ab hab ao hao acm hacm h0 h1 x0 x1 x2 xs).1, y ∈ pc.1.set :=
  View.cover_of_tiledL (runStore c i ax hax aw haw ab hab ao hao acm hacm h0 h1 x0 x1 x2 xs).1 S1024x2048.size (by sl_kernel_rfl) y

/-- At the points where the body does not store the output block nothing consults its contents: a placeholder. -/
def outIdle : Vec F S1024x2048 .f32 := outView.read (Elt F) outView.junk

/-! ## The accumulation over the grid -/

/-- The output block's staging buffer and the scratch after the body at position `n`: the case the position's
    residue modulo 8 selects, run on the point's blocks, the scratch read at what position `n - 1` left. -/
def outsAt (c : Dev nD) : (n : ℕ) → n < cfg1.N → Vec F S1024x2048 .f32 × Vec F S1024x2048 .f32
  | 0, hn => (outIdle, accReset c (grid1.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩))
  | n + 1, hn =>
    if h0 : (n + 1) % 8 = 0 then
      (outIdle, accReset c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) ((isFirst_iff ⟨n + 1, hn⟩).mpr h0) (fun h => (fun h => by (try dsimp only at h); omega) ((isLast_iff ⟨n + 1, hn⟩).mp h)) (blk V c 0 ⟨n + 1, hn⟩) (blk V c 1 ⟨n + 1, hn⟩) (blk V c 2 ⟨n + 1, hn⟩))
    else
      if h1 : (n + 1) % 8 = 7 then
        (outStore c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
         accStore c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (outIdle, accStep c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

/-- At a reset point. -/
theorem outsAt_reset (c : Dev nD) (t : Fin cfg1.N) (h0 : t.val % 8 = 0) (h1 : ¬t.val % 8 = 7) :
    outsAt V c t.val t.isLt = (outIdle, accReset c (grid1.coords t) (mx t) (hx t) (mw t) (hw t) (mb t) (hb t) (mo t) (ho t) accM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans rfl

/-- At a middle point, over what the point before left. -/
theorem outsAt_step (c : Dev nD) (t : Fin cfg1.N) (h0 : ¬t.val % 8 = 0) (h1 : ¬t.val % 8 = 7) :
    outsAt V c t.val t.isLt = (outIdle, accStep c (grid1.coords t) (mx t) (hx t) (mw t) (hw t) (mb t) (hb t) (mo t) (ho t) accM (Memref.isWhole_whole _) (fun h => h0 ((isFirst_iff t).mp h)) (fun h => h1 ((isLast_iff t).mp h)) (blk V c 0 t) (blk V c 1 t) (blk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the store point, over what the point before left. -/
theorem outsAt_store (c : Dev nD) (t : Fin cfg1.N) (h0 : ¬t.val % 8 = 0) (h1 : t.val % 8 = 7) :
    outsAt V c t.val t.isLt = (outStore c (grid1.coords t) (mx t) (hx t) (mw t) (hw t) (mb t) (hb t) (mo t) (ho t) accM (Memref.isWhole_whole _) (fun h => h0 ((isFirst_iff t).mp h)) ((isLast_iff t).mpr h1) (blk V c 0 t) (blk V c 1 t) (blk V c 2 t) (outsAt V c (t.val - 1) (Nat.lt_of_le_of_lt (Nat.sub_le _ _) t.isLt)).2,
      accStore c (grid1.coords t) (mx t) (hx t) (mw t) (hw t) (mb t) (hb t) (mo t) (ho t) accM (Memref.isWhole_whole _) (fun h => h0 ((isFirst_iff t).mp h)) ((isLast_iff t).mpr h1) (blk V c 0 t) (blk V c 1 t) (blk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (the scratch at anything); afterwards the scratch at
    what position `n - 1` left, the other scoped buffers at anything, the generator register at some state. -/
def inv (c : Dev nD) : (n : ℕ) → n ≤ cfg1.N → sProp 𝕄
  | 0, _ => Pipeline.ΦA spec1 c
  | n + 1, hn => restWith (F := F) c (owns (c : Thread nD τ) accM fullShare ((outsAt V c n hn).2))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = restWith (F := F) c (owns (c : Thread nD τ) accM fullShare ((outsAt V c n hn).2)) := rfl

theorem inv_pos (c : Dev nD) (n : ℕ) (h : n ≤ cfg1.N) (hz : n ≠ 0) :
    inv V c n h = restWith (F := F) c (owns (c : Thread nD τ) accM fullShare ((outsAt V c (n - 1) (by omega)).2)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem after_out (c : Dev nD) (t : Fin cfg1.N) : (dat V c).after 3 t = (outsAt V c t.val t.isLt).1 := by dsimp only [dat]

theorem before_x (c : Dev nD) (t : Fin cfg1.N) (d) : (dat V c).before 0 t d = blk V c 0 t :=
  before_x_of V (dat V c) (A_eq V c 0) (after_x V c) t d
theorem before_w (c : Dev nD) (t : Fin cfg1.N) (d) : (dat V c).before 1 t d = blk V c 1 t :=
  before_w_of V (dat V c) (A_eq V c 1) (after_w V c) t d
theorem before_b (c : Dev nD) (t : Fin cfg1.N) (d) : (dat V c).before 2 t d = blk V c 2 t :=
  before_b_of V (dat V c) (A_eq V c 2) (after_b V c) t d

/-- After the body an input window's buffer still holds its block. -/
theorem leaves_x (c : Dev nD) (t : Fin cfg1.N) :
    (dat V c).leavesExact 0 t = owns (c : Thread nD τ) (mx t) fullShare (blk V c 0 t) := by
  rw [show (dat V c).leavesExact 0 t = owns (c : Thread nD τ) (mx t) fullShare ((dat V c).after 0 t) from by
    unfold Dat.leavesExact; rw [live_x t], after_x]
theorem leaves_w (c : Dev nD) (t : Fin cfg1.N) :
    (dat V c).leavesExact 1 t = owns (c : Thread nD τ) (mw t) fullShare (blk V c 1 t) := by
  rw [show (dat V c).leavesExact 1 t = owns (c : Thread nD τ) (mw t) fullShare ((dat V c).after 1 t) from by
    unfold Dat.leavesExact; rw [live_w t], after_w]
theorem leaves_b (c : Dev nD) (t : Fin cfg1.N) :
    (dat V c).leavesExact 2 t = owns (c : Thread nD τ) (mb t) fullShare (blk V c 2 t) := by
  rw [show (dat V c).leavesExact 2 t = owns (c : Thread nD τ) (mb t) fullShare ((dat V c).after 2 t) from by
    unfold Dat.leavesExact; rw [live_b t], after_b]
/-- At k = 7 the output window's buffer holds what the store point leaves. -/
theorem leaves_out (c : Dev nD) (t : Fin cfg1.N) (h1 : t.val % 8 = 7) :
    (dat V c).leavesExact 3 t = owns (c : Thread nD τ) (mo t) fullShare ((outsAt V c t.val t.isLt).1) := by
  rw [show (dat V c).leavesExact 3 t = owns (c : Thread nD τ) (mo t) fullShare ((dat V c).after 3 t) from by
    unfold Dat.leavesExact; rw [live_out t ((isLast_iff t).mpr h1)], after_out]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the position's residue modulo 8 says which case
    the point is in; the invariant hands over the scratch at what the point before left (at anything at the grid's
    first point) and takes it back at this point's contents, which the case's pieces cover; the output block is
    left alone except at k = 7; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = inv V c (t.val + 1) t.isLt from rfl, inv_succ]
  have hN : t.val < 32 := lt_of_lt_of_eq t.isLt (show cfg1.N = 32 from N_1)
  by_cases h0 : t.val % 8 = 0
  · have h1 : ¬t.val % 8 = 7 := by omega
    rw [leaves_x V c t, leaves_w V c t, leaves_b V c t]
    rw [Dat.leavesExact_idle (dat V c) 3 t (idle_out t (fun h => h1 ((isLast_iff t).mp h))) (noflush_out t (fun h => h1 ((isLast_iff t).mp h)))]
    rw [outsAt_reset V c t h0 h1]
    unfold accReset restWith; (try dsimp only)
    by_cases hz : t.val = 0
    · rw [inv_castSucc V c t, inv_zero V c _ _ hz, PhiA_eq]; unfold restWith
      iintro ⟨⟨⟨H00, H01, H10, H11, H20, H21, HS⟩, Hg⟩, Ho, ⟨%d0, H0⟩, ⟨%d1, H1⟩, ⟨%d2, H2⟩, ⟨%d3, H3⟩⟩
      iapply ((runReset c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accReset_covers c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runReset c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accReset_covers c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [leaves_x V c t, leaves_w V c t, leaves_b V c t]
      rw [leaves_out V c t h1]
      rw [outsAt_store V c t h0 h1]
      unfold outStore accStore restWith; (try dsimp only)
      rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runStore c (grid1.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accStore_covers c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outStore_covers c _ _ _ _ _ _ _ _ _ _ _ _ _ _ _ _ _)
    · rw [leaves_x V c t, leaves_w V c t, leaves_b V c t]
      rw [Dat.leavesExact_idle (dat V c) 3 t (idle_out t (fun h => h1 ((isLast_iff t).mp h))) (noflush_out t (fun h => h1 ((isLast_iff t).mp h)))]
      rw [outsAt_step V c t h0 h1]
      unfold accStep restWith; (try dsimp only)
      rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runStep c (grid1.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accStep_covers c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class's back: the scratch's named contents are forgotten. -/
theorem inv_out (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = inv V c (Fin.last cfg1.N).val (Nat.le_of_lt_succ (Fin.last cfg1.N).isLt) from rfl,
    inv_pos V c _ _ hne, PhiA_eq]
  unfold restWith
  iintro ⟨⟨H00, H01, H10, H11, H20, H21, HS⟩, Hg⟩
  isplitr [Hg]
  · isplitl [H00]; · iexact H00
    isplitl [H01]; · iexact H01
    isplitl [H10]; · iexact H10
    isplitl [H11]; · iexact H11
    isplitl [H20]; · iexact H20
    isplitl [H21]; · iexact H21
    iexists _; iexact HS
  iexact Hg

end Cert.Kernel.Acc

end
-- ==== Proof.Bits.Whole.lean ====
/- The run of @main from the launch to the return. @main is three segments: the masking region, the
   host stretch that reshapes the bias vector into a row, the accumulating-product region. The contents
   of every unscoped buffer at each segment boundary are a fold from the launch memory: a region leaves
   its arrays at what its write-backs leave and every other buffer as entered; the host stretch leaves
   what its operations compute. Over these boundary contents each region is a segment of @main, and the
   library's launch theorem for a list of segments gives the run with every unscoped buffer read at the last boundary:
   the arguments as launched, the result at what the second region's write-backs leave. -/
import proofs.«148055_j68899865362757_2_alg».proof.Proof.Bits.MaskRegion
import proofs.«148055_j68899865362757_2_alg».proof.Proof.Bits.AccRegion
import proofs.«148055_j68899865362757_2_alg».proof.Proof.Gen.Kernel.Launch
import proofs.«148055_j68899865362757_2_alg».proof.Proof.Gen.Kernel.Skeleton
import proofs.«148055_j68899865362757_2_alg».proof.Proof.Gen.Kernel.Points
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: what the masking region is entered from (no host operation precedes it). -/
abbrev Wlaunch : Dev nD → Valuation τ sig (Elt F) := fun c b => (s₀ m ρ).mem ((c : Dev nD), b)
/-- The launch contents read at the TensorCore's references: the masking region's entry contents. -/
abbrev Vmask : (c : Dev nD) → (b : Ref sig .tc) → Buf (Elt F) ((c : Thread nD τ).loc b) := fun c b => Wlaunch m ρ c b

/-- At the masking region's exit: its three arrays at what the pipeline leaves (the mask and the weights as
    entered, the masked weights at the write-backs folded), every other buffer as entered. -/
def Wmasked (c : Dev nD) : Valuation τ sig (Elt F) :=
  Pipeline.withArrays spec0 c (Wlaunch m ρ c) fun w => (Mask.dat (Vmask m ρ) c).arrAt w cfg0.N
theorem Wmasked_arr (c : Dev nD) (w : Fin cfg0.W) :
    Wmasked m ρ c (Proc.devRef .tc (Pipeline.arrRef spec0 w)) = (Mask.dat (Vmask m ρ) c).arrAt w cfg0.N := by
  unfold Wmasked; exact Pipeline.withArrays_arr spec0 launch0.win.arr_inj c _ _ w
theorem Wmasked_of_ne (c : Dev nD) (b : Ref sig .tc) (hb : ∀ w, Pipeline.arrRef spec0 w ≠ b) :
    Wmasked m ρ c (Proc.devRef .tc b) = Wlaunch m ρ c (Proc.devRef .tc b) := by
  unfold Wmasked; exact Pipeline.withArrays_of_ne spec0 c _ _ b hb
/-- The same read at the TensorCore's references. -/
abbrev Vmasked : (c : Dev nD) → (b : Ref sig .tc) → Buf (Elt F) ((c : Thread nD τ).loc b) := fun c b => Wmasked m ρ c b
theorem masked_arrays (c : Dev nD) (w : Fin cfg0.W) :
    (Mask.dat (Vmask m ρ) c).arrAt w cfg0.N = Vmasked m ρ c (Pipeline.arrRef spec0 w) :=
  (Wmasked_arr m ρ c w).symm
theorem masked_rest (c : Dev nD) : ∀ b, b ∉ Finset.univ.image (Pipeline.arrRef spec0) → Vmasked m ρ c b = Vmask m ρ c b :=
  fun b hb => Wmasked_of_ne m ρ c b fun w e => hb (Finset.mem_image.mpr ⟨w, Finset.mem_univ _, e⟩)

/-- After the host stretch (the bias reshaped into a row): what the product region is entered from. -/
abbrev Whost : Dev nD → Valuation τ sig (Elt F) := fun c => StableHlo.after hostOps1 (Wmasked m ρ c)
/-- The same read at the TensorCore's references: the product region's entry contents. -/
abbrev Vacc : (c : Dev nD) → (b : Ref sig .tc) → Buf (Elt F) ((c : Thread nD τ).loc b) := fun c b => Whost m ρ c b

/-- At the product region's exit: its four arrays at what the pipeline leaves, every other buffer as entered. -/
def Wend (c : Dev nD) : Valuation τ sig (Elt F) :=
  Pipeline.withArrays spec1 c (Whost m ρ c) fun w => (Acc.dat (Vacc m ρ) c).arrAt w cfg1.N
theorem Wend_arr (c : Dev nD) (w : Fin cfg1.W) :
    Wend m ρ c (Proc.devRef .tc (Pipeline.arrRef spec1 w)) = (Acc.dat (Vacc m ρ) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m ρ c (Proc.devRef .tc b) = Whost m ρ c (Proc.devRef .tc b) := by
  unfold Wend; exact Pipeline.withArrays_of_ne spec1 c _ _ b hb
/-- The same read at the TensorCore's references. -/
abbrev Vend : (c : Dev nD) → (b : Ref sig .tc) → Buf (Elt F) ((c : Thread nD τ).loc b) := fun c b => Wend m ρ c b
theorem end_arrays (c : Dev nD) (w : Fin cfg1.W) :
    (Acc.dat (Vacc m ρ) c).arrAt w cfg1.N = Vend m ρ c (Pipeline.arrRef spec1 w) :=
  (Wend_arr m ρ c w).symm
theorem end_rest (c : Dev nD) : ∀ b, b ∉ Finset.univ.image (Pipeline.arrRef spec1) → Vend m ρ c b = Vacc m ρ c b :=
  fun b hb => Wend_of_ne m ρ c b fun w e => hb (Finset.mem_image.mpr ⟨w, Finset.mem_univ _, e⟩)

/-! ## The entry contents of the two regions, and the arguments at the end -/

/-- The host stretch writes the reshaped bias row and nothing else. -/
theorem Whost_of_ne (c : Dev nD) (b : Ref sig .tc) (hb : b ≠ main_v1) :
    Whost m ρ c (Proc.devRef .tc b) = Wmasked m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The masking region is entered from the launch memory: its mask, -/
theorem Vmask_main_arg1 (c : Dev nD) : Vmask m ρ c main_arg1 = m ((c : Thread nD τ).loc main_arg1) := rfl
/-- and its weights. -/
theorem Vmask_main_arg2 (c : Dev nD) : Vmask m ρ c main_arg2 = m ((c : Thread nD τ).loc main_arg2) := rfl

/-- The product region's left operand is the first argument as launched: neither the masking region (it is none of
    its arrays) nor the host stretch writes it. -/
theorem Vacc_main_arg0 (c : Dev nD) : Vacc m ρ c main_arg0 = m ((c : Thread nD τ).loc main_arg0) :=
  calc Whost m ρ c (Proc.devRef .tc main_arg0)
    _ = Wmasked m ρ c (Proc.devRef .tc main_arg0) := Whost_of_ne m ρ c main_arg0 (by decide)
    _ = Wlaunch m ρ c (Proc.devRef .tc main_arg0) := Wmasked_of_ne m ρ c main_arg0 (by decide)
    _ = m ((c : Thread nD τ).loc main_arg0) := rfl

/-- The product region's right operand is what the masking region's write-backs leave in its output array. -/
theorem Vacc_main_v0 (c : Dev nD) : Vacc m ρ c main_v0 = (Mask.dat (Vmask m ρ) c).arrAt 2 cfg0.N :=
  calc Whost m ρ c (Proc.devRef .tc main_v0)
    _ = Wmasked m ρ c (Proc.devRef .tc main_v0) := Whost_of_ne m ρ c main_v0 (by decide)
    _ = (Mask.dat (Vmask m ρ) c).arrAt 2 cfg0.N := Wmasked_arr m ρ c 2

/-- The bias argument reaches the host stretch as launched. -/
theorem Wmasked_main_arg3 (c : Dev nD) : Wmasked m ρ c (Proc.devRef .tc main_arg3) = m ((c : Thread nD τ).loc main_arg3) :=
  (Wmasked_of_ne m ρ c main_arg3 (by decide)).trans rfl

/-- The product region's bias row is the bias argument as launched, reshaped from a vector into a one-row matrix. -/
theorem Vacc_main_v1 (c : Dev nD) :
    Vacc m ρ c main_v1 = fun i => shapeCast main_v1.ty.shape (m ((c : Thread nD τ).loc main_arg3)) shapeCasts_S4096_S1x4096 i := by
  rw [← Wmasked_main_arg3 m ρ c]
  dsimp only [Vacc, Whost, hostOps1]
  after_results

/-- The first argument ends as launched: the product region reads it through an input window. -/
theorem Wend_main_arg0 (c : Dev nD) : Wend m ρ c (Proc.devRef .tc main_arg0) = m ((c : Thread nD τ).loc main_arg0) :=
  calc Wend m ρ c (Proc.devRef .tc main_arg0)
    _ = Whost m ρ c (Proc.devRef .tc main_arg0) :=
        (Wend_arr m ρ c 0).trans (((Acc.dat (Vacc m ρ) c).arrAt_in 0 rfl _).trans (Acc.A_eq (Vacc m ρ) c 0))
    _ = m ((c : Thread nD τ).loc main_arg0) := Vacc_main_arg0 m ρ c

/-- The mask ends as launched: the product region and the host stretch bypass it, the masking region reads it through
    an input window. -/
theorem Wend_main_arg1 (c : Dev nD) : Wend m ρ c (Proc.devRef .tc main_arg1) = m ((c : Thread nD τ).loc main_arg1) :=
  calc Wend m ρ c (Proc.devRef .tc main_arg1)
    _ = Whost m ρ c (Proc.devRef .tc main_arg1) := Wend_of_ne m ρ c main_arg1 (by decide)
    _ = Wmasked m ρ c (Proc.devRef .tc main_arg1) := Whost_of_ne m ρ c main_arg1 (by decide)
    _ = Wlaunch m ρ c (Proc.devRef .tc main_arg1) :=
        (Wmasked_arr m ρ c 0).trans (((Mask.dat (Vmask m ρ) c).arrAt_in 0 rfl _).trans (Mask.A_eq (Vmask m ρ) c 0))
    _ = m ((c : Thread nD τ).loc main_arg1) := rfl

/-- The weights end as launched, as the mask does. -/
theorem Wend_main_arg2 (c : Dev nD) : Wend m ρ c (Proc.devRef .tc main_arg2) = m ((c : Thread nD τ).loc main_arg2) :=
  calc Wend m ρ c (Proc.devRef .tc main_arg2)
    _ = Whost m ρ c (Proc.devRef .tc main_arg2) := Wend_of_ne m ρ c main_arg2 (by decide)
    _ = Wmasked m ρ c (Proc.devRef .tc main_arg2) := Whost_of_ne m ρ c main_arg2 (by decide)
    _ = Wlaunch m ρ c (Proc.devRef .tc main_arg2) :=
        (Wmasked_arr m ρ c 1).trans (((Mask.dat (Vmask m ρ) c).arrAt_in 1 rfl _).trans (Mask.A_eq (Vmask m ρ) c 1))
    _ = m ((c : Thread nD τ).loc main_arg2) := rfl

/-- The bias ends as launched: the host stretch only reads it and both regions bypass it. -/
theorem Wend_main_arg3 (c : Dev nD) : Wend m ρ c (Proc.devRef .tc main_arg3) = m ((c : Thread nD τ).loc main_arg3) :=
  calc Wend m ρ c (Proc.devRef .tc main_arg3)
    _ = Whost m ρ c (Proc.devRef .tc main_arg3) := Wend_of_ne m ρ c main_arg3 (by decide)
    _ = Wmasked m ρ c (Proc.devRef .tc main_arg3) := Whost_of_ne m ρ c main_arg3 (by decide)
    _ = m ((c : Thread nD τ).loc main_arg3) := Wmasked_main_arg3 m ρ c

/-- The result array ends at what the product region's write-backs leave in it. -/
theorem Wend_main_v2 (c : Dev nD) : Wend m ρ c (Proc.devRef .tc main_v2) = (Acc.dat (Vacc m ρ) c).arrAt 3 cfg1.N :=
  Wend_arr m ρ c 3

/-! ## The proof data family and the thread state -/

/-- The prefetched tables' admissible contents: neither pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mask.dat (Vmask m ρ) c
  | ⟨1, _⟩ => fun c => Acc.dat (Vacc m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- No operation of the host stretch allocates a buffer. -/
theorem hostOps1_fresh : (hostOps1 : List (HloOp τ sig (Elt F))).Forall fun op => op.fresh = ∅ := by
  simp only [List.Forall]; repeat' constructor
/-- The host stretch as a segment: every unscoped buffer from the masking region's exit contents, `R` riding along;
    it leaves them at the product region's entry contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wmasked m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tlast (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- The masking region over the thread state: entered from every unscoped buffer at the launch contents, left at
    `Wmasked`. Its arrays are split out of the unscoped buffers and put back at the exit contents; the generator
    register goes into the region's invariant and comes back; nothing is owed. -/
def maskSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mask.body_obligation (Vmask m ρ) c).loose
  hwaits := Pipeline.hwaits_of_owed_zero _ _ _ _ L lv 0 fun _ _ => rfl
  pre c := iprop(StableHlo.held (c : Thread nD τ) (Pipeline.ucRefs τ sig) (Wlaunch m ρ c) ∗ R c)
  post c := iprop(StableHlo.held (c : Thread nD τ) (Pipeline.ucRefs τ sig) (Wmasked m ρ c) ∗ R c)
  X c := iprop(∃ r, prngReg c r)
  Y c := iprop(∃ r, prngReg c r)
  Z c := Pipeline.unscopedRest (Ix := Unit) (Name := ℕ) (U := UR sig nD τ) (Lvl := ℕ) spec0 c (Vmask m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vmask m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vmask m ρ c) (Vmasked m ρ c) ((pdats m ρ 0 c).arrAt · cfg0.N) (masked_arrays m ρ c) (masked_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered from every unscoped buffer at `Whost`, left at `Wend` (what
    the launch reads at the end). As the masking region, except that its invariant carries the accumulator between
    points: the generator register and the scoped buffers no window stages make the invariant at the first point
    (`Acc.inv_in`), and the invariant at the last point gives them back (`Acc.inv_out`). -/
def accSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (Vacc m ρ) c).loose
  hwaits := Pipeline.hwaits_of_owed_zero _ _ _ _ L lv 1 fun _ _ => rfl
  pre c := iprop(StableHlo.held (c : Thread nD τ) (Pipeline.ucRefs τ sig) (Whost m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vacc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vacc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Acc.inv_in (Vacc m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (Acc.inv_out (Vacc m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vacc m ρ c) (Vend m ρ c) ((pdats m ρ 1 c).arrAt · cfg1.N) (end_arrays m ρ c) (end_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the masking region, the host stretch, the product region. -/
abbrev segs : List (Pipeline.Seg (pcfgs (F := F)) adm (pdats m ρ) () defs₀ 𝒱₀ L lv) :=
  [ .region (maskSeg m ρ),
    .host (hostSeg m ρ),
    .region (accSeg m ρ) ]
/-- @main is the run of the segments: it is the chain of its three items, and so is the segments' run. -/
theorem main_run (c : Dev nD) : main (F := F) c = Pipeline.Seg.run (segs m ρ) := (main_chain c).trans (by chain_rfl)

/-- What the launch reads on core `c` off a final memory: every unscoped buffer at the last boundary's contents. -/
abbrev AtEnd (c : Dev nD) (s : MemSt nD τ sig (Elt F)) : Prop :=
  ∀ b ∈ Pipeline.ucRefs τ sig, s.mem (((c : Thread nD τ)).1, b) = Wend m ρ c b

set_option backward.isDefEq.respectTransparency.types false in
/-- The run with every unscoped buffer read at the end: at the compiled mesh, from any memory with zero counters,
    every weakly fair execution of @main on the TensorCores terminates, nothing faulting, and every final memory
    satisfies any `Q` that follows from each core's unscoped buffers holding the last boundary's contents. -/
theorem run_at_end {Q : PUnit × MemSt nD τ sig (Elt F) → Prop}
    (hQ : ∀ s : MemSt nD τ sig (Elt F), (∀ c : Dev nD, AtEnd m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m ρ c) ∗ R c)) (Tₙ := Tlast m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m ρ c)
        from Pipeline.unscopedBufs_held c (Wlaunch m ρ c)]
      iintro ⟨⟨Hh, -, HO, -, Hp, -⟩, -⟩
      imodintro
      isplitl [Hh]; · iexact Hh
      isplitl [Hp]; · iexists _; iexact Hp
      iexists ∅; iexact HO)
    (QY := AtEnd m ρ)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The arguments read off a final memory that holds the last boundary's contents. -/
theorem args_at_end (c : Dev nD) (s : MemSt nD τ sig (Elt F)) (h : AtEnd m ρ c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3) :=
  ⟨(h _ (mem_uc main_arg0 (by decide))).trans (Wend_main_arg0 m ρ c),
   (h _ (mem_uc main_arg1 (by decide))).trans (Wend_main_arg1 m ρ c),
   (h _ (mem_uc main_arg2 (by decide))).trans (Wend_main_arg2 m ρ c),
   (h _ (mem_uc main_arg3 (by decide))).trans (Wend_main_arg3 m ρ c)⟩

/-- THE FRAME at any `F`: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_at_end m ρ fun s h c => args_at_end m ρ c s (h c)

/-- THE RUN WITH ITS VALUE at any `F`: @main runs, the result array ends at what the product region's write-backs
    leave in it — the region entered from `Vacc` —, and every argument array ends as launched. -/
theorem run_value : θ_run defs (onTc (τ := τ) (main (F := F))) ⟨m, fun _ => 0, ρ⟩ (fun r => ∀ c : Dev nD,
      r.2.mem ((c.tc : Thread nD τ).loc main_v2) = (Acc.dat (Vacc m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_at_end m ρ fun s h c =>
    ⟨(h c _ (mem_uc main_v2 (by decide))).trans (Wend_main_v2 m ρ c), args_at_end m ρ c s (h c)⟩

/-- info: 'Cert.Kernel.Whole.run_at_end' depends on axioms: [propext, Classical.choice, Quot.sound] -/
#guard_msgs in #print axioms run_at_end

end Cert.Kernel.Whole

end
-- ==== Proof.MaskRegion.lean ====
/- Region 0: the masking stage. For every block (i, j) of the 8 x 2 grid the body stores
   select (mask ≠ 0) W 0 of the two input blocks into the output block. -/
import proofs.«148055_j68899865362757_2_alg».proof.Proof.Gen.KernelIdeal.Launch
import proofs.«148055_j68899865362757_2_alg».proof.Proof.Gen.KernelIdeal.Skeleton
import proofs.«148055_j68899865362757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mask

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one rectangle every access of the body uses: the whole 512 x 2048 block. -/
abbrev whole : Rect S512x2048 := Rect.unit (s := S512x2048) ![0, 0] S512x2048.size inb_S512x2048_S512x2048_0_0

/-- The output block from the mask block xm and the weight block xw. -/
def out (xm xw : Vec F S512x2048 .f32) : Vec F S512x2048 .bf16 :=
  View.canon [⟨whole, k0_pay1 (View.ld xw whole) (View.ld xm whole)⟩]

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => out (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = out (blk V c 0 t) (blk V c 1 t) := by dsimp only [dat]

/-- The mask window's staging buffer holds the mask block at every grid point, whether or not the
    block was fetched at that point: an input window is never written by the body, so its buffer
    still holds what the last fetch put there, which is the block of the point. -/
theorem before_0 (c : Dev nD) (t : Fin cfg0.N) (d) : (dat V c).before 0 t d = blk V c 0 t :=
  ((dat V c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The same for the weight window. -/
theorem before_1 (c : Dev nD) (t : Fin cfg0.N) (d) : (dat V c).before 1 t d = blk V c 1 t :=
  ((dat V c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- The single store writes the whole 512 x 2048 rectangle, so every index of the output buffer
    lies in the rectangle of some (the only) piece. -/
theorem whole_covers (p : Vec F S512x2048 .bf16) (y : S512x2048.Idx) :
    ∃ pc ∈ ([⟨whole, p⟩] : List (View.Piece (Elt F) S512x2048 .bf16)), y ∈ pc.1.set :=
  View.cover_of_tiled [⟨whole, p⟩] S512x2048.size (by rfl) y

set_option maxHeartbeats 1000000 in
/-- The body's triple. Started with the mask buffer at xm, the weight buffer at xw and the output
    buffer at anything, the body loads the weight block, the mask block and (without using it) the
    output block, then stores the masked weight over the whole output buffer: it ends with the two
    inputs unchanged and the output at out xm xw. -/
theorem body_triple (c : Dev nD) (E : Set ℕ) (i : grid0.Coords)
    (am : Memref sig .tc .vmem S512x2048 .f32) (ham : am.IsWhole)
    (aw : Memref sig .tc .vmem S512x2048 .f32) (haw : aw.IsWhole)
    (ao : Memref sig .tc .vmem S512x2048 .bf16) (hao : ao.IsWhole)
    (xm xw : Vec F S512x2048 .f32) (K : PUnit → sProp 𝕄) :
    iprop(owns (c : Thread nD τ) am fullShare xm ∗ owns (c : Thread nD τ) aw fullShare xw
        ∗ (∃ d, owns (c : Thread nD τ) ao fullShare d)
        ∗ (iprop(owns (c : Thread nD τ) am fullShare xm ∗ owns (c : Thread nD τ) aw fullShare xw
            ∗ owns (c : Thread nD τ) ao fullShare (out xm xw)) -∗ K ⟨⟩))
      ⊢ wp frame (wpE (defs₀ (F := F)) Variants.none c none) E (cc0__premask_kernel i am ham aw haw ao hao) K := by
  simp only [cc0__premask_kernel_eq_skeleton]; unfold cc0__premask_kernel_skel
  unfold owns
  iintro ⟨⟨%fm, %hfm, Hm⟩, ⟨%fw, %hfw, Hw⟩, ⟨%d, %fo, -, Ho⟩, Hk⟩
  subst hfm hfw
  sl_exec
  sl_step
  iapply Hk
  isplitl [Hm]
  · iexists fm; isplitr; · ipureintro; rfl
    iexact Hm
  isplitl [Hw]
  · iexists fw; isplitr; · ipureintro; rfl
    iexact Hw
  iexists _; isplitr
  swap; · iexact Ho
  ipureintro
  exact View.read_writes_eq_canon _ _ _ (whole_covers _)

/-- What the pipeline hands the body at point t: the invariant, what the core owes, and the three
    windows' current staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What the body hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at a generic point: the two input buffers hold their blocks, so the triple applies;
    the invariant and the debt are constant in the point and pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Hd, ⟨%d0, Hm⟩, ⟨%d1, Hw⟩, ⟨%d2, Ho⟩⟩
  iapply (body_triple c Set.univ (grid0.coords t) _ _ _ _ _ _ (blk V c 0 t) (blk V c 1 t) _)
  isplitl [Hm]; · iexact Hm
  isplitl [Hw]; · iexact Hw
  isplitl [Ho]; · iexists _; iexact Ho
  iintro ⟨Hm, Hw, Ho⟩
  isplitl [HΦ]; · iexact HΦ
  isplitl [Hd]; · iexact Hd
  isplitl [Hm]; · iexact Hm
  isplitl [Hw]; · iexact Hw
  iexact Ho

theorem body_obligation (c : Dev nD) : BodyObligation (dat (F := F) V c) (defs₀ (F := F)) Variants.none () Set.univ := fun t => by
  rw [bigSep_W0, bigSep_W0]
  exact sound_body V c t

end Cert.KernelIdeal.Mask

end
-- ==== Proof.AccShared.lean ====
/- Region 1, the accumulating product over the grid (i, j, k): what its three control cases share.
   The blocks the windows stage, the two conditions of the body (k = 0: the scratch is reset; k = 7: the
   output block is stored) in closed form over the 32 grid points, the points where the output window
   is left alone, and the scoped buffers the region does not stage. -/
import proofs.«148055_j68899865362757_2_alg».proof.Proof.Gen.KernelIdeal.Launch
import proofs.«148055_j68899865362757_2_alg».proof.Proof.Gen.KernelIdeal.Skeleton
import proofs.«148055_j68899865362757_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it
    there or the block index did not move since the last fetch: window 0 (the x block at (i, k)). -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Window 1 (the masked-weight block at (k, j)). -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Window 2 (the bias row's block at (0, j), fetched only when j changes). -/
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions -/

/-- The body resets the scratch: the condition k = 0 as the kernel computes it from the grid coordinates. -/
abbrev isFirst (i : grid1.Coords) : Prop :=
  (Scalar.cmpi .ne (Scalar.extui (Scalar.cmpi .eq (BitVec.ofNat 32 (i 2).val) 0#32)) 0#32) = 1#1
/-- It holds exactly at the points whose position is 0 modulo 8. -/
theorem isFirst_iff : ∀ t : Fin cfg1.N, isFirst (grid1.coords t) ↔ t.val % 8 = 0 :=
  (by decide +kernel : ∀ t : Fin grid1.N, isFirst (grid1.coords t) ↔ t.val % 8 = 0)

/-- The body stores the output block: the condition k = 7. -/
abbrev isLast (i : grid1.Coords) : Prop := k1_cond2 i = 1#1
/-- It holds exactly at the points whose position is 7 modulo 8. -/
theorem isLast_iff : ∀ t : Fin cfg1.N, isLast (grid1.coords t) ↔ t.val % 8 = 7 :=
  (by decide +kernel : ∀ t : Fin grid1.N, isLast (grid1.coords t) ↔ t.val % 8 = 7)

/-! ## Where the windows are left alone -/

theorem live_x : ∀ t : Fin cfg1.N, cfg1.idle 0 (grid1.coords t) = false := by decide +kernel
theorem live_w : ∀ t : Fin cfg1.N, cfg1.idle 1 (grid1.coords t) = false := by decide +kernel
theorem live_b : ∀ t : Fin cfg1.N, cfg1.idle 2 (grid1.coords t) = false := by decide +kernel
/-- Away from k = 7 the body stores nothing into the output block and the pipeline does not write it back. -/
theorem idle_out : ∀ t : Fin cfg1.N, ¬isLast (grid1.coords t) → cfg1.idle 3 (grid1.coords t) = true := by decide +kernel
theorem noflush_out : ∀ t : Fin cfg1.N, ¬isLast (grid1.coords t) → (cfg1.win 3).flush t = false := by decide +kernel
/-- At k = 7 it does. -/
theorem live_out : ∀ t : Fin cfg1.N, isLast (grid1.coords t) → cfg1.idle 3 (grid1.coords t) = false := by decide +kernel

/-! ## The memrefs the body is called with -/

/-- One staging buffer of the output window, through which its contents are stated. -/
abbrev outView : View sig .tc .vmem S1024x2048 .f32 := (Memref.whole cc1_stg3_0 : Memref sig .tc .vmem S1024x2048 .f32).view
abbrev mx (t : Fin cfg1.N) : Memref sig .tc .vmem S1024x512 .f32 := win1_0.stage (cfg1.slots t 0)
abbrev hx (t : Fin cfg1.N) : (mx t).IsWhole := hstage1_0 ((cfg1.slots t 0).cast nbuf1_0)
abbrev mw (t : Fin cfg1.N) : Memref sig .tc .vmem S512x2048 .bf16 := win1_1.stage (cfg1.slots t 1)
abbrev hw (t : Fin cfg1.N) : (mw t).IsWhole := hstage1_1 ((cfg1.slots t 1).cast nbuf1_1)
abbrev mb (t : Fin cfg1.N) : Memref sig .tc .vmem S1x2048 .f32 := win1_2.stage (cfg1.slots t 2)
abbrev hb (t : Fin cfg1.N) : (mb t).IsWhole := hstage1_2 ((cfg1.slots t 2).cast nbuf1_2)
abbrev mo (t : Fin cfg1.N) : Memref sig .tc .vmem S1024x2048 .f32 := win1_3.stage (cfg1.slots t 3)
abbrev ho (t : Fin cfg1.N) : (mo t).IsWhole := hstage1_3 ((cfg1.slots t 3).cast nbuf1_3)
/-- The scratch accumulator: a whole scoped buffer of the kernel's own. -/
abbrev accM : Memref sig .tc .vmem S1024x2048 .f32 := Memref.whole cc1_scratch0
abbrev accView : View sig .tc .vmem S1024x2048 .f32 := accM.view

/-! ## The scoped buffers this region does not stage -/

/-- The scoped buffers region 1 does not stage — region 0's six staging buffers, each whole at some contents,
    and the scratch, here at the state `P` — beside the generator register at some state. -/
def restWith (c : Dev nD) (P : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P) ∗ (∃ r, prngReg c r))

/-- The class invariant of this region spelled out: the scratch at some contents. -/
theorem PhiA_eq (c : Dev nD) :
    (Pipeline.ΦA spec1 c : sProp 𝕄) = restWith (F := F) c iprop(∃ d, owns (c : Thread nD τ) accM fullShare d) := by
  unfold Pipeline.ΦA restWith; rw [scopedRest1_eq]; simp only [accM, owns_whole]; try rfl

end Cert.KernelIdeal.Acc

end
-- ==== Proof.AccRuns.lean ====
/- Region 1: the body run whole, once per control case. At k = 0 the scratch is reset to zero and then
   receives the first block product; at 0 < k < 7 it receives the next product on top of what the point before
   left; at k = 7 it does the same and the output block is stored as the scratch plus the bias row. Each run
   finds, as its witness, the list of pieces the body's stores leave in the output block and in the scratch. -/
import proofs.«148055_j68899865362757_2_alg».proof.Proof.AccShared

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The reset point (k = 0, not k = 7). The three input blocks are read and handed back; the output block, which
    the body does not touch here, is handed back as it came (`xi`); the scratch, at anything before, ends with the
    pieces `LS` written. -/
noncomputable def runReset (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) :
    Σ' (LO : List (View.Piece (Elt F) S1024x2048 .f32)), { LS : List (View.Piece (Elt F) S1024x2048 .f32) //
      ∀ (xi : Vec F S1024x2048 .f32) (E : Set ℕ) (K : PUnit → sProp 𝕄),
        iprop(owns (c : Thread nD τ) ax fullShare x0 ∗ owns (c : Thread nD τ) aw fullShare x1 ∗ owns (c : Thread nD τ) ab fullShare x2 ∗ owns (c : Thread nD τ) ao fullShare xi ∗ (∃ d, owns (c : Thread nD τ) acm fullShare d)
            ∗ (iprop(owns (c : Thread nD τ) ax fullShare x0 ∗ owns (c : Thread nD τ) aw fullShare x1 ∗ owns (c : Thread nD τ) ab fullShare x2 ∗ owns (c : Thread nD τ) ao fullShare xi ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := hax.eq_unread hf0; obtain rfl := haw.eq_unread hf1; obtain rfl := hab.eq_unread hf2; obtain rfl := hao.eq_unread hf3
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]
    · iexists _; isplitr; · ipureintro; exact hao.read_unread _
      iexact H3
    iexists _; iexact HS

set_option maxHeartbeats 1000000 in
/-- A middle point (neither k = 0 nor k = 7): as the reset point, but the scratch comes at the contents `xs` the
    point before left. -/
noncomputable def runStep (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) :
    Σ' (LO : List (View.Piece (Elt F) S1024x2048 .f32)), { LS : List (View.Piece (Elt F) S1024x2048 .f32) //
      ∀ (xi : Vec F S1024x2048 .f32) (E : Set ℕ) (K : PUnit → sProp 𝕄),
        iprop(owns (c : Thread nD τ) ax fullShare x0 ∗ owns (c : Thread nD τ) aw fullShare x1 ∗ owns (c : Thread nD τ) ab fullShare x2 ∗ owns (c : Thread nD τ) ao fullShare xi ∗ owns (c : Thread nD τ) acm fullShare xs
            ∗ (iprop(owns (c : Thread nD τ) ax fullShare x0 ∗ owns (c : Thread nD τ) aw fullShare x1 ∗ owns (c : Thread nD τ) ab fullShare x2 ∗ owns (c : Thread nD τ) ao fullShare xi ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨[], ?_, fun xi E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := hax.eq_unread hf0; obtain rfl := haw.eq_unread hf1; obtain rfl := hab.eq_unread hf2; obtain rfl := hao.eq_unread hf3; obtain rfl := hacm.eq_unread hfs
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]
    · iexists _; isplitr; · ipureintro; exact hao.read_unread _
      iexact H3
    iexists _; iexact HS

set_option maxHeartbeats 1000000 in
/-- The store point (k = 7, not k = 0): the scratch comes at `xs` and ends with `LS` written; the output block, at
    anything before, ends with the pieces `LO` written. -/
noncomputable def runStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) ax fullShare x0 ∗ owns (c : Thread nD τ) aw fullShare x1 ∗ owns (c : Thread nD τ) ab fullShare x2 ∗ (∃ d, owns (c : Thread nD τ) ao fullShare d) ∗ owns (c : Thread nD τ) acm fullShare xs
            ∗ (iprop(owns (c : Thread nD τ) ax fullShare x0 ∗ owns (c : Thread nD τ) aw fullShare x1 ∗ owns (c : Thread nD τ) ab fullShare x2 ∗ (∃ f, ao.view.loc (c : Thread nD τ) ↦[ao.view.set]{fullShare} ao.view.writes (Elt F) f LO) ∗ (∃ f, acm.view.loc (c : Thread nD τ) ↦[acm.view.set]{fullShare} acm.view.writes (Elt F) f LS)) -∗ K ⟨⟩))
          ⊢ wp frame (wpE (defs₀ (F := F)) Variants.none c none) E (cc1__matmul_kernel i ax hax aw haw ab hab ao hao acm hacm) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := hax.eq_unread hf0; obtain rfl := haw.eq_unread hf1; obtain rfl := hab.eq_unread hf2; obtain rfl := hacm.eq_unread hfs
    sl_exec (disch := first | exact h0 | exact h1)
    sl_step
    iapply Hk
    isplitl [H0]
    · iexists _; isplitr; · ipureintro; exact hax.read_unread _
      iexact H0
    isplitl [H1]
    · iexists _; isplitr; · ipureintro; exact haw.read_unread _
      iexact H1
    isplitl [H2]
    · iexists _; isplitr; · ipureintro; exact hab.read_unread _
      iexact H2
    isplitl [H3]; · iexists _; iexact H3
    iexists _; iexact HS

end Cert.KernelIdeal.Acc

end
-- ==== Proof.AccRegion.lean ====
/- Region 1, the accumulating product: what the scratch and the output block hold after each grid point, the
   region's invariant (the scratch at what the point before left), its proof data and the body obligation.
   Position n of the grid is (i, j, k) with k = n mod 8: the scratch is reset at k = 0, receives one block product
   at every point, and at k = 7 the output block is stored as the scratch plus the bias row. -/
import proofs.«148055_j68899865362757_2_alg».proof.Proof.AccRuns

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The scratch after a reset point: its pieces read back. -/
def accReset (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) : Vec F S1024x2048 .f32 :=
  accView.read (Elt F) (accView.writes (Elt F) accView.junk (runReset c i ax hax aw haw ab hab ao hao acm hacm h0 h1 x0 x1 x2).2.1)

/-- Those pieces tile the scratch, so they cover it. -/
theorem accReset_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : isFirst i) (h1 : ¬isLast i)
    (x0 : Vec F S1024x512 .f32) (x1 : Vec F S512x2048 .bf16) (x2 : Vec F S1x2048 .f32) (y : S1024x2048.Idx) :
    ∃ pc ∈ (runReset c i ax hax aw haw ab hab ao hao acm hacm h0 h1 x0 x1 x2).2.1, y ∈ pc.1.set :=
  View.cover_of_tiledL (runReset c i ax hax aw haw ab hab ao hao acm hacm h0 h1 x0 x1 x2).2.1 S1024x2048.size (by sl_kernel_rfl) y

/-- The scratch after a middle point, from what the point before left (`xs`). -/
def accStep (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) : Vec F S1024x2048 .f32 :=
  accView.read (Elt F) (accView.writes (Elt F) accView.junk (runStep c i ax hax aw haw ab hab ao hao acm hacm h0 h1 x0 x1 x2 xs).2.1)

theorem accStep_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : ¬isLast i)
    (x0 : Vec F S1024x512 .f32) (x1 : Vec F S512x2048 .bf16) (x2 : Vec F S1x2048 .f32) (xs : Vec F S1024x2048 .f32) (y : S1024x2048.Idx) :
    ∃ pc ∈ (runStep c i ax hax aw haw ab hab ao hao acm hacm h0 h1 x0 x1 x2 xs).2.1, y ∈ pc.1.set :=
  View.cover_of_tiledL (runStep c i ax hax aw haw ab hab ao hao acm hacm h0 h1 x0 x1 x2 xs).2.1 S1024x2048.size (by sl_kernel_rfl) y

/-- The scratch after the store point. -/
def accStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) : Vec F S1024x2048 .f32 :=
  accView.read (Elt F) (accView.writes (Elt F) accView.junk (runStore c i ax hax aw haw ab hab ao hao acm hacm h0 h1 x0 x1 x2 xs).2.1)

theorem accStore_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) (y : S1024x2048.Idx) :
    ∃ pc ∈ (runStore c i ax hax aw haw ab hab ao hao acm hacm h0 h1 x0 x1 x2 xs).2.1, y ∈ pc.1.set :=
  View.cover_of_tiledL (runStore c i ax hax aw haw ab hab ao hao acm hacm h0 h1 x0 x1 x2 xs).2.1 S1024x2048.size (by sl_kernel_rfl) y

/-- The output block after the store point. -/
def outStore (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) : Vec F S1024x2048 .f32 :=
  outView.read (Elt F) (outView.writes (Elt F) outView.junk (runStore c i ax hax aw haw ab hab ao hao acm hacm h0 h1 x0 x1 x2 xs).1)

theorem outStore_covers (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬isFirst i) (h1 : isLast i)
    (x0 : Vec F S1024x512 .f32) (x1 : Vec F S512x2048 .bf16) (x2 : Vec F S1x2048 .f32) (xs : Vec F S1024x2048 .f32) (y : S1024x2048.Idx) :
    ∃ pc ∈ (runStore c i ax hax aw haw ab hab ao hao acm hacm h0 h1 x0 x1 x2 xs).1, y ∈ pc.1.set :=
  View.cover_of_tiledL (runStore c i ax hax aw haw ab hab ao hao acm hacm h0 h1 x0 x1 x2 xs).1 S1024x2048.size (by sl_kernel_rfl) y

/-- At the points where the body does not store the output block nothing consults its contents: a placeholder. -/
def outIdle : Vec F S1024x2048 .f32 := outView.read (Elt F) outView.junk

/-! ## The accumulation over the grid -/

/-- The output block's staging buffer and the scratch after the body at position `n`: the case the position's
    residue modulo 8 selects, run on the point's blocks, the scratch read at what position `n - 1` left. -/
def outsAt (c : Dev nD) : (n : ℕ) → n < cfg1.N → Vec F S1024x2048 .f32 × Vec F S1024x2048 .f32
  | 0, hn => (outIdle, accReset c (grid1.coords ⟨0, hn⟩) (mx ⟨0, hn⟩) (hx ⟨0, hn⟩) (mw ⟨0, hn⟩) (hw ⟨0, hn⟩) (mb ⟨0, hn⟩) (hb ⟨0, hn⟩) (mo ⟨0, hn⟩) (ho ⟨0, hn⟩) accM (Memref.isWhole_whole _) ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩))
  | n + 1, hn =>
    if h0 : (n + 1) % 8 = 0 then
      (outIdle, accReset c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) ((isFirst_iff ⟨n + 1, hn⟩).mpr h0) (fun h => (fun h => by (try dsimp only at h); omega) ((isLast_iff ⟨n + 1, hn⟩).mp h)) (blk V c 0 ⟨n + 1, hn⟩) (blk V c 1 ⟨n + 1, hn⟩) (blk V c 2 ⟨n + 1, hn⟩))
    else
      if h1 : (n + 1) % 8 = 7 then
        (outStore c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
         accStore c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (outIdle, accStep c (grid1.coords ⟨n + 1, hn⟩) (mx ⟨n + 1, hn⟩) (hx ⟨n + 1, hn⟩) (mw ⟨n + 1, hn⟩) (hw ⟨n + 1, hn⟩) (mb ⟨n + 1, hn⟩) (hb ⟨n + 1, hn⟩) (mo ⟨n + 1, hn⟩) (ho ⟨n + 1, hn⟩) accM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

/-- At a reset point. -/
theorem outsAt_reset (c : Dev nD) (t : Fin cfg1.N) (h0 : t.val % 8 = 0) (h1 : ¬t.val % 8 = 7) :
    outsAt V c t.val t.isLt = (outIdle, accReset c (grid1.coords t) (mx t) (hx t) (mw t) (hw t) (mb t) (hb t) (mo t) (ho t) accM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans rfl

/-- At a middle point, over what the point before left. -/
theorem outsAt_step (c : Dev nD) (t : Fin cfg1.N) (h0 : ¬t.val % 8 = 0) (h1 : ¬t.val % 8 = 7) :
    outsAt V c t.val t.isLt = (outIdle, accStep c (grid1.coords t) (mx t) (hx t) (mw t) (hw t) (mb t) (hb t) (mo t) (ho t) accM (Memref.isWhole_whole _) (fun h => h0 ((isFirst_iff t).mp h)) (fun h => h1 ((isLast_iff t).mp h)) (blk V c 0 t) (blk V c 1 t) (blk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the store point, over what the point before left. -/
theorem outsAt_store (c : Dev nD) (t : Fin cfg1.N) (h0 : ¬t.val % 8 = 0) (h1 : t.val % 8 = 7) :
    outsAt V c t.val t.isLt = (outStore c (grid1.coords t) (mx t) (hx t) (mw t) (hw t) (mb t) (hb t) (mo t) (ho t) accM (Memref.isWhole_whole _) (fun h => h0 ((isFirst_iff t).mp h)) ((isLast_iff t).mpr h1) (blk V c 0 t) (blk V c 1 t) (blk V c 2 t) (outsAt V c (t.val - 1) (Nat.lt_of_le_of_lt (Nat.sub_le _ _) t.isLt)).2,
      accStore c (grid1.coords t) (mx t) (hx t) (mw t) (hw t) (mb t) (hb t) (mo t) (ho t) accM (Memref.isWhole_whole _) (fun h => h0 ((isFirst_iff t).mp h)) ((isLast_iff t).mpr h1) (blk V c 0 t) (blk V c 1 t) (blk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the class's invariant (the scratch at anything); afterwards the scratch at
    what position `n - 1` left, the other scoped buffers at anything, the generator register at some state. -/
def inv (c : Dev nD) : (n : ℕ) → n ≤ cfg1.N → sProp 𝕄
  | 0, _ => Pipeline.ΦA spec1 c
  | n + 1, hn => restWith (F := F) c (owns (c : Thread nD τ) accM fullShare ((outsAt V c n hn).2))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = restWith (F := F) c (owns (c : Thread nD τ) accM fullShare ((outsAt V c n hn).2)) := rfl

theorem inv_pos (c : Dev nD) (n : ℕ) (h : n ≤ cfg1.N) (hz : n ≠ 0) :
    inv V c n h = restWith (F := F) c (owns (c : Thread nD τ) accM fullShare ((outsAt V c (n - 1) (by omega)).2)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem after_out (c : Dev nD) (t : Fin cfg1.N) : (dat V c).after 3 t = (outsAt V c t.val t.isLt).1 := by dsimp only [dat]

theorem before_x (c : Dev nD) (t : Fin cfg1.N) (d) : (dat V c).before 0 t d = blk V c 0 t :=
  before_x_of V (dat V c) (A_eq V c 0) (after_x V c) t d
theorem before_w (c : Dev nD) (t : Fin cfg1.N) (d) : (dat V c).before 1 t d = blk V c 1 t :=
  before_w_of V (dat V c) (A_eq V c 1) (after_w V c) t d
theorem before_b (c : Dev nD) (t : Fin cfg1.N) (d) : (dat V c).before 2 t d = blk V c 2 t :=
  before_b_of V (dat V c) (A_eq V c 2) (after_b V c) t d

/-- After the body an input window's buffer still holds its block. -/
theorem leaves_x (c : Dev nD) (t : Fin cfg1.N) :
    (dat V c).leavesExact 0 t = owns (c : Thread nD τ) (mx t) fullShare (blk V c 0 t) := by
  rw [show (dat V c).leavesExact 0 t = owns (c : Thread nD τ) (mx t) fullShare ((dat V c).after 0 t) from by
    unfold Dat.leavesExact; rw [live_x t], after_x]
theorem leaves_w (c : Dev nD) (t : Fin cfg1.N) :
    (dat V c).leavesExact 1 t = owns (c : Thread nD τ) (mw t) fullShare (blk V c 1 t) := by
  rw [show (dat V c).leavesExact 1 t = owns (c : Thread nD τ) (mw t) fullShare ((dat V c).after 1 t) from by
    unfold Dat.leavesExact; rw [live_w t], after_w]
theorem leaves_b (c : Dev nD) (t : Fin cfg1.N) :
    (dat V c).leavesExact 2 t = owns (c : Thread nD τ) (mb t) fullShare (blk V c 2 t) := by
  rw [show (dat V c).leavesExact 2 t = owns (c : Thread nD τ) (mb t) fullShare ((dat V c).after 2 t) from by
    unfold Dat.leavesExact; rw [live_b t], after_b]
/-- At k = 7 the output window's buffer holds what the store point leaves. -/
theorem leaves_out (c : Dev nD) (t : Fin cfg1.N) (h1 : t.val % 8 = 7) :
    (dat V c).leavesExact 3 t = owns (c : Thread nD τ) (mo t) fullShare ((outsAt V c t.val t.isLt).1) := by
  rw [show (dat V c).leavesExact 3 t = owns (c : Thread nD τ) (mo t) fullShare ((dat V c).after 3 t) from by
    unfold Dat.leavesExact; rw [live_out t ((isLast_iff t).mpr h1)], after_out]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mx t) fullShare ((dat V c).before 0 t d))
    ∗ (∃ d, owns (c : Thread nD τ) (mw t) fullShare ((dat V c).before 1 t d))
    ∗ (∃ d, owns (c : Thread nD τ) (mb t) fullShare ((dat V c).before 2 t d))
    ∗ (∃ d, owns (c : Thread nD τ) (mo t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the position's residue modulo 8 says which case
    the point is in; the invariant hands over the scratch at what the point before left (at anything at the grid's
    first point) and takes it back at this point's contents, which the case's pieces cover; the output block is
    left alone except at k = 7; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = inv V c (t.val + 1) t.isLt from rfl, inv_succ]
  have hN : t.val < 32 := lt_of_lt_of_eq t.isLt (show cfg1.N = 32 from N_1)
  by_cases h0 : t.val % 8 = 0
  · have h1 : ¬t.val % 8 = 7 := by omega
    rw [leaves_x V c t, leaves_w V c t, leaves_b V c t]
    rw [Dat.leavesExact_idle (dat V c) 3 t (idle_out t (fun h => h1 ((isLast_iff t).mp h))) (noflush_out t (fun h => h1 ((isLast_iff t).mp h)))]
    rw [outsAt_reset V c t h0 h1]
    unfold accReset restWith; (try dsimp only)
    by_cases hz : t.val = 0
    · rw [inv_castSucc V c t, inv_zero V c _ _ hz, PhiA_eq]; unfold restWith
      iintro ⟨⟨⟨H00, H01, H10, H11, H20, H21, HS⟩, Hg⟩, Ho, ⟨%d0, H0⟩, ⟨%d1, H1⟩, ⟨%d2, H2⟩, ⟨%d3, H3⟩⟩
      iapply ((runReset c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accReset_covers c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runReset c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accReset_covers c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [leaves_x V c t, leaves_w V c t, leaves_b V c t]
      rw [leaves_out V c t h1]
      rw [outsAt_store V c t h0 h1]
      unfold outStore accStore restWith; (try dsimp only)
      rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runStore c (grid1.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accStore_covers c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outStore_covers c _ _ _ _ _ _ _ _ _ _ _ _ _ _ _ _ _)
    · rw [leaves_x V c t, leaves_w V c t, leaves_b V c t]
      rw [Dat.leavesExact_idle (dat V c) 3 t (idle_out t (fun h => h1 ((isLast_iff t).mp h))) (noflush_out t (fun h => h1 ((isLast_iff t).mp h)))]
      rw [outsAt_step V c t h0 h1]
      unfold accStep restWith; (try dsimp only)
      rw [inv_castSucc V c t, inv_pos V c _ _ hz]; unfold restWith
      iintro ⟨⟨⟨H00, H01, H10, H11, H20, H21, HS⟩, Hg⟩, Ho, ⟨%d0, H0⟩, ⟨%d1, H1⟩, ⟨%d2, H2⟩, ⟨%d3, H3⟩⟩
      iapply ((runStep c (grid1.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS H00 H01 H10 H11 H20 H21 Hg]
      · isplitr [Hg]
        · isplitl [H00]; · iexact H00
          isplitl [H01]; · iexact H01
          isplitl [H10]; · iexact H10
          isplitl [H11]; · iexact H11
          isplitl [H20]; · iexact H20
          isplitl [H21]; · iexact H21
          unfold owns; iexists _; isplitr
          swap; · iexact HS
          ipureintro; exact View.read_writes_of_cover _ _ _ _ _ (accStep_covers c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## Entering and leaving the region -/

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class's back: the scratch's named contents are forgotten. -/
theorem inv_out (c : Dev nD) : (dat V c).Φ (Fin.last cfg1.N) ⊢ Pipeline.ΦA spec1 c := by
  have hne : (Fin.last cfg1.N).val ≠ 0 := by rw [Fin.val_last]; have : cfg1.N = 32 := N_1; omega
  rw [show (dat V c).Φ (Fin.last cfg1.N) = inv V c (Fin.last cfg1.N).val (Nat.le_of_lt_succ (Fin.last cfg1.N).isLt) from rfl,
    inv_pos V c _ _ hne, PhiA_eq]
  unfold restWith
  iintro ⟨⟨H00, H01, H10, H11, H20, H21, HS⟩, Hg⟩
  isplitr [Hg]
  · isplitl [H00]; · iexact H00
    isplitl [H01]; · iexact H01
    isplitl [H10]; · iexact H10
    isplitl [H11]; · iexact H11
    isplitl [H20]; · iexact H20
    isplitl [H21]; · iexact H21
    iexists _; iexact HS
  iexact Hg

end Cert.KernelIdeal.Acc

end
-- ==== Proof.Whole.lean ====
/- The run of @main from the launch to the return. @main is three segments: the masking region, the
   host stretch that reshapes the bias vector into a row, the accumulating-product region. The contents
   of every unscoped buffer at each segment boundary are a fold from the launch memory: a region leaves
   its arrays at what its write-backs leave and every other buffer as entered; the host stretch leaves
   what its operations compute. Over these boundary contents each region is a segment of @main, and the
   library's launch theorem for a list of segments gives the run with every unscoped buffer read at the last boundary:
   the arguments as launched, the result at what the second region's write-backs leave. -/
import proofs.«148055_j68899865362757_2_alg».proof.Proof.MaskRegion
import proofs.«148055_j68899865362757_2_alg».proof.Proof.AccRegion
import proofs.«148055_j68899865362757_2_alg».proof.Proof.Gen.KernelIdeal.Launch
import proofs.«148055_j68899865362757_2_alg».proof.Proof.Gen.KernelIdeal.Skeleton
import proofs.«148055_j68899865362757_2_alg».proof.Proof.Gen.KernelIdeal.Points
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch: what the masking region is entered from (no host operation precedes it). -/
abbrev Wlaunch : Dev nD → Valuation τ sig (Elt F) := fun c b => (s₀ m ρ).mem ((c : Dev nD), b)
/-- The launch contents read at the TensorCore's references: the masking region's entry contents. -/
abbrev Vmask : (c : Dev nD) → (b : Ref sig .tc) → Buf (Elt F) ((c : Thread nD τ).loc b) := fun c b => Wlaunch m ρ c b

/-- At the masking region's exit: its three arrays at what the pipeline leaves (the mask and the weights as
    entered, the masked weights at the write-backs folded), every other buffer as entered. -/
def Wmasked (c : Dev nD) : Valuation τ sig (Elt F) :=
  Pipeline.withArrays spec0 c (Wlaunch m ρ c) fun w => (Mask.dat (Vmask m ρ) c).arrAt w cfg0.N
theorem Wmasked_arr (c : Dev nD) (w : Fin cfg0.W) :
    Wmasked m ρ c (Proc.devRef .tc (Pipeline.arrRef spec0 w)) = (Mask.dat (Vmask m ρ) c).arrAt w cfg0.N := by
  unfold Wmasked; exact Pipeline.withArrays_arr spec0 launch0.win.arr_inj c _ _ w
theorem Wmasked_of_ne (c : Dev nD) (b : Ref sig .tc) (hb : ∀ w, Pipeline.arrRef spec0 w ≠ b) :
    Wmasked m ρ c (Proc.devRef .tc b) = Wlaunch m ρ c (Proc.devRef .tc b) := by
  unfold Wmasked; exact Pipeline.withArrays_of_ne spec0 c _ _ b hb
/-- The same read at the TensorCore's references. -/
abbrev Vmasked : (c : Dev nD) → (b : Ref sig .tc) → Buf (Elt F) ((c : Thread nD τ).loc b) := fun c b => Wmasked m ρ c b
theorem masked_arrays (c : Dev nD) (w : Fin cfg0.W) :
    (Mask.dat (Vmask m ρ) c).arrAt w cfg0.N = Vmasked m ρ c (Pipeline.arrRef spec0 w) :=
  (Wmasked_arr m ρ c w).symm
theorem masked_rest (c : Dev nD) : ∀ b, b ∉ Finset.univ.image (Pipeline.arrRef spec0) → Vmasked m ρ c b = Vmask m ρ c b :=
  fun b hb => Wmasked_of_ne m ρ c b fun w e => hb (Finset.mem_image.mpr ⟨w, Finset.mem_univ _, e⟩)

/-- After the host stretch (the bias reshaped into a row): what the product region is entered from. -/
abbrev Whost : Dev nD → Valuation τ sig (Elt F) := fun c => StableHlo.after hostOps1 (Wmasked m ρ c)
/-- The same read at the TensorCore's references: the product region's entry contents. -/
abbrev Vacc : (c : Dev nD) → (b : Ref sig .tc) → Buf (Elt F) ((c : Thread nD τ).loc b) := fun c b => Whost m ρ c b

/-- At the product region's exit: its four arrays at what the pipeline leaves, every other buffer as entered. -/
def Wend (c : Dev nD) : Valuation τ sig (Elt F) :=
  Pipeline.withArrays spec1 c (Whost m ρ c) fun w => (Acc.dat (Vacc m ρ) c).arrAt w cfg1.N
theorem Wend_arr (c : Dev nD) (w : Fin cfg1.W) :
    Wend m ρ c (Proc.devRef .tc (Pipeline.arrRef spec1 w)) = (Acc.dat (Vacc m ρ) c).arrAt w cfg1.N := by
  unfold Wend; exact Pipeline.withArrays_arr spec1 launch1.win.arr_inj c _ _ w
theorem Wend_of_ne (c : Dev nD) (b : Ref sig .tc) (hb : ∀ w, Pipeline.arrRef spec1 w ≠ b) :
    Wend m ρ c (Proc.devRef .tc b) = Whost m ρ c (Proc.devRef .tc b) := by
  unfold Wend; exact Pipeline.withArrays_of_ne spec1 c _ _ b hb
/-- The same read at the TensorCore's references. -/
abbrev Vend : (c : Dev nD) → (b : Ref sig .tc) → Buf (Elt F) ((c : Thread nD τ).loc b) := fun c b => Wend m ρ c b
theorem end_arrays (c : Dev nD) (w : Fin cfg1.W) :
    (Acc.dat (Vacc m ρ) c).arrAt w cfg1.N = Vend m ρ c (Pipeline.arrRef spec1 w) :=
  (Wend_arr m ρ c w).symm
theorem end_rest (c : Dev nD) : ∀ b, b ∉ Finset.univ.image (Pipeline.arrRef spec1) → Vend m ρ c b = Vacc m ρ c b :=
  fun b hb => Wend_of_ne m ρ c b fun w e => hb (Finset.mem_image.mpr ⟨w, Finset.mem_univ _, e⟩)

/-! ## The entry contents of the two regions, and the arguments at the end -/

/-- The host stretch writes the reshaped bias row and nothing else. -/
theorem Whost_of_ne (c : Dev nD) (b : Ref sig .tc) (hb : b ≠ main_v1) :
    Whost m ρ c (Proc.devRef .tc b) = Wmasked m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The masking region is entered from the launch memory: its mask, -/
theorem Vmask_main_arg1 (c : Dev nD) : Vmask m ρ c main_arg1 = m ((c : Thread nD τ).loc main_arg1) := rfl
/-- and its weights. -/
theorem Vmask_main_arg2 (c : Dev nD) : Vmask m ρ c main_arg2 = m ((c : Thread nD τ).loc main_arg2) := rfl

/-- The product region's left operand is the first argument as launched: neither the masking region (it is none of
    its arrays) nor the host stretch writes it. -/
theorem Vacc_main_arg0 (c : Dev nD) : Vacc m ρ c main_arg0 = m ((c : Thread nD τ).loc main_arg0) :=
  calc Whost m ρ c (Proc.devRef .tc main_arg0)
    _ = Wmasked m ρ c (Proc.devRef .tc main_arg0) := Whost_of_ne m ρ c main_arg0 (by decide)
    _ = Wlaunch m ρ c (Proc.devRef .tc main_arg0) := Wmasked_of_ne m ρ c main_arg0 (by decide)
    _ = m ((c : Thread nD τ).loc main_arg0) := rfl

/-- The product region's right operand is what the masking region's write-backs leave in its output array. -/
theorem Vacc_main_v0 (c : Dev nD) : Vacc m ρ c main_v0 = (Mask.dat (Vmask m ρ) c).arrAt 2 cfg0.N :=
  calc Whost m ρ c (Proc.devRef .tc main_v0)
    _ = Wmasked m ρ c (Proc.devRef .tc main_v0) := Whost_of_ne m ρ c main_v0 (by decide)
    _ = (Mask.dat (Vmask m ρ) c).arrAt 2 cfg0.N := Wmasked_arr m ρ c 2

/-- The bias argument reaches the host stretch as launched. -/
theorem Wmasked_main_arg3 (c : Dev nD) : Wmasked m ρ c (Proc.devRef .tc main_arg3) = m ((c : Thread nD τ).loc main_arg3) :=
  (Wmasked_of_ne m ρ c main_arg3 (by decide)).trans rfl

/-- The product region's bias row is the bias argument as launched, reshaped from a vector into a one-row matrix. -/
theorem Vacc_main_v1 (c : Dev nD) :
    Vacc m ρ c main_v1 = fun i => shapeCast main_v1.ty.shape (m ((c : Thread nD τ).loc main_arg3)) shapeCasts_S4096_S1x4096 i := by
  rw [← Wmasked_main_arg3 m ρ c]
  dsimp only [Vacc, Whost, hostOps1]
  after_results

/-- The first argument ends as launched: the product region reads it through an input window. -/
theorem Wend_main_arg0 (c : Dev nD) : Wend m ρ c (Proc.devRef .tc main_arg0) = m ((c : Thread nD τ).loc main_arg0) :=
  calc Wend m ρ c (Proc.devRef .tc main_arg0)
    _ = Whost m ρ c (Proc.devRef .tc main_arg0) :=
        (Wend_arr m ρ c 0).trans (((Acc.dat (Vacc m ρ) c).arrAt_in 0 rfl _).trans (Acc.A_eq (Vacc m ρ) c 0))
    _ = m ((c : Thread nD τ).loc main_arg0) := Vacc_main_arg0 m ρ c

/-- The mask ends as launched: the product region and the host stretch bypass it, the masking region reads it through
    an input window. -/
theorem Wend_main_arg1 (c : Dev nD) : Wend m ρ c (Proc.devRef .tc main_arg1) = m ((c : Thread nD τ).loc main_arg1) :=
  calc Wend m ρ c (Proc.devRef .tc main_arg1)
    _ = Whost m ρ c (Proc.devRef .tc main_arg1) := Wend_of_ne m ρ c main_arg1 (by decide)
    _ = Wmasked m ρ c (Proc.devRef .tc main_arg1) := Whost_of_ne m ρ c main_arg1 (by decide)
    _ = Wlaunch m ρ c (Proc.devRef .tc main_arg1) :=
        (Wmasked_arr m ρ c 0).trans (((Mask.dat (Vmask m ρ) c).arrAt_in 0 rfl _).trans (Mask.A_eq (Vmask m ρ) c 0))
    _ = m ((c : Thread nD τ).loc main_arg1) := rfl

/-- The weights end as launched, as the mask does. -/
theorem Wend_main_arg2 (c : Dev nD) : Wend m ρ c (Proc.devRef .tc main_arg2) = m ((c : Thread nD τ).loc main_arg2) :=
  calc Wend m ρ c (Proc.devRef .tc main_arg2)
    _ = Whost m ρ c (Proc.devRef .tc main_arg2) := Wend_of_ne m ρ c main_arg2 (by decide)
    _ = Wmasked m ρ c (Proc.devRef .tc main_arg2) := Whost_of_ne m ρ c main_arg2 (by decide)
    _ = Wlaunch m ρ c (Proc.devRef .tc main_arg2) :=
        (Wmasked_arr m ρ c 1).trans (((Mask.dat (Vmask m ρ) c).arrAt_in 1 rfl _).trans (Mask.A_eq (Vmask m ρ) c 1))
    _ = m ((c : Thread nD τ).loc main_arg2) := rfl

/-- The bias ends as launched: the host stretch only reads it and both regions bypass it. -/
theorem Wend_main_arg3 (c : Dev nD) : Wend m ρ c (Proc.devRef .tc main_arg3) = m ((c : Thread nD τ).loc main_arg3) :=
  calc Wend m ρ c (Proc.devRef .tc main_arg3)
    _ = Whost m ρ c (Proc.devRef .tc main_arg3) := Wend_of_ne m ρ c main_arg3 (by decide)
    _ = Wmasked m ρ c (Proc.devRef .tc main_arg3) := Whost_of_ne m ρ c main_arg3 (by decide)
    _ = m ((c : Thread nD τ).loc main_arg3) := Wmasked_main_arg3 m ρ c

/-- The result array ends at what the product region's write-backs leave in it. -/
theorem Wend_main_v2 (c : Dev nD) : Wend m ρ c (Proc.devRef .tc main_v2) = (Acc.dat (Vacc m ρ) c).arrAt 3 cfg1.N :=
  Wend_arr m ρ c 3

/-! ## The proof data family and the thread state -/

/-- The prefetched tables' admissible contents: neither pipeline has a table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Mask.dat (Vmask m ρ) c
  | ⟨1, _⟩ => fun c => Acc.dat (Vacc m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- No operation of the host stretch allocates a buffer. -/
theorem hostOps1_fresh : (hostOps1 : List (HloOp τ sig (Elt F))).Forall fun op => op.fresh = ∅ := by
  simp only [List.Forall]; repeat' constructor
/-- The host stretch as a segment: every unscoped buffer from the masking region's exit contents, `R` riding along;
    it leaves them at the product region's entry contents. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Wmasked m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tlast (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- The masking region over the thread state: entered from every unscoped buffer at the launch contents, left at
    `Wmasked`. Its arrays are split out of the unscoped buffers and put back at the exit contents; the generator
    register goes into the region's invariant and comes back; nothing is owed. -/
def maskSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mask.body_obligation (Vmask m ρ) c).loose
  hwaits := Pipeline.hwaits_of_owed_zero _ _ _ _ L lv 0 fun _ _ => rfl
  pre c := iprop(StableHlo.held (c : Thread nD τ) (Pipeline.ucRefs τ sig) (Wlaunch m ρ c) ∗ R c)
  post c := iprop(StableHlo.held (c : Thread nD τ) (Pipeline.ucRefs τ sig) (Wmasked m ρ c) ∗ R c)
  X c := iprop(∃ r, prngReg c r)
  Y c := iprop(∃ r, prngReg c r)
  Z c := Pipeline.unscopedRest (Ix := Unit) (Name := ℕ) (U := UR sig nD τ) (Lvl := ℕ) spec0 c (Vmask m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vmask m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vmask m ρ c) (Vmasked m ρ c) ((pdats m ρ 0 c).arrAt · cfg0.N) (masked_arrays m ρ c) (masked_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered from every unscoped buffer at `Whost`, left at `Wend` (what
    the launch reads at the end). As the masking region, except that its invariant carries the accumulator between
    points: the generator register and the scoped buffers no window stages make the invariant at the first point
    (`Acc.inv_in`), and the invariant at the last point gives them back (`Acc.inv_out`). -/
def accSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (Vacc m ρ) c).loose
  hwaits := Pipeline.hwaits_of_owed_zero _ _ _ _ L lv 1 fun _ _ => rfl
  pre c := iprop(StableHlo.held (c : Thread nD τ) (Pipeline.ucRefs τ sig) (Whost m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vacc m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vacc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (Acc.inv_in (Vacc m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (Acc.inv_out (Vacc m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vacc m ρ c) (Vend m ρ c) ((pdats m ρ 1 c).arrAt · cfg1.N) (end_arrays m ρ c) (end_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the masking region, the host stretch, the product region. -/
abbrev segs : List (Pipeline.Seg (pcfgs (F := F)) adm (pdats m ρ) () defs₀ 𝒱₀ L lv) :=
  [ .region (maskSeg m ρ),
    .host (hostSeg m ρ),
    .region (accSeg m ρ) ]
/-- @main is the run of the segments: it is the chain of its three items, and so is the segments' run. -/
theorem main_run (c : Dev nD) : main (F := F) c = Pipeline.Seg.run (segs m ρ) := (main_chain c).trans (by chain_rfl)

/-- What the launch reads on core `c` off a final memory: every unscoped buffer at the last boundary's contents. -/
abbrev AtEnd (c : Dev nD) (s : MemSt nD τ sig (Elt F)) : Prop :=
  ∀ b ∈ Pipeline.ucRefs τ sig, s.mem (((c : Thread nD τ)).1, b) = Wend m ρ c b

set_option backward.isDefEq.respectTransparency.types false in
/-- The run with every unscoped buffer read at the end: at the compiled mesh, from any memory with zero counters,
    every weakly fair execution of @main on the TensorCores terminates, nothing faulting, and every final memory
    satisfies any `Q` that follows from each core's unscoped buffers holding the last boundary's contents. -/
theorem run_at_end {Q : PUnit × MemSt nD τ sig (Elt F) → Prop}
    (hQ : ∀ s : MemSt nD τ sig (Elt F), (∀ c : Dev nD, AtEnd m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wlaunch m ρ c) ∗ R c)) (Tₙ := Tlast m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wlaunch m ρ c)
        from Pipeline.unscopedBufs_held c (Wlaunch m ρ c)]
      iintro ⟨⟨Hh, -, HO, -, Hp, -⟩, -⟩
      imodintro
      isplitl [Hh]; · iexact Hh
      isplitl [Hp]; · iexists _; iexact Hp
      iexists ∅; iexact HO)
    (QY := AtEnd m ρ)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- The arguments read off a final memory that holds the last boundary's contents. -/
theorem args_at_end (c : Dev nD) (s : MemSt nD τ sig (Elt F)) (h : AtEnd m ρ c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3) :=
  ⟨(h _ (mem_uc main_arg0 (by decide))).trans (Wend_main_arg0 m ρ c),
   (h _ (mem_uc main_arg1 (by decide))).trans (Wend_main_arg1 m ρ c),
   (h _ (mem_uc main_arg2 (by decide))).trans (Wend_main_arg2 m ρ c),
   (h _ (mem_uc main_arg3 (by decide))).trans (Wend_main_arg3 m ρ c)⟩

/-- THE FRAME at any `F`: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_at_end m ρ fun s h c => args_at_end m ρ c s (h c)

/-- THE RUN WITH ITS VALUE at any `F`: @main runs, the result array ends at what the product region's write-backs
    leave in it — the region entered from `Vacc` —, and every argument array ends as launched. -/
theorem run_value : θ_run defs (onTc (τ := τ) (main (F := F))) ⟨m, fun _ => 0, ρ⟩ (fun r => ∀ c : Dev nD,
      r.2.mem ((c.tc : Thread nD τ).loc main_v2) = (Acc.dat (Vacc m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_at_end m ρ fun s h c =>
    ⟨(h c _ (mem_uc main_v2 (by decide))).trans (Wend_main_v2 m ρ c), args_at_end m ρ c s (h c)⟩

/-- info: 'Cert.KernelIdeal.Whole.run_at_end' depends on axioms: [propext, Classical.choice, Quot.sound] -/
#guard_msgs in #print axioms run_at_end

end Cert.KernelIdeal.Whole

end
-- ==== Proof.Spec.lean ====
import Idealize.ShloMosaic.PureOps.Ideal
import Idealize.ShloMosaic.Lib.ValueIdx
import Mathlib.Algebra.BigOperators.Fin
import Mathlib.Algebra.BigOperators.Intervals

/-! The specification of the masked matrix product with bias, entry by entry over the extended reals, and the
    summation law that a sum taken block by block is the sum over the whole range. -/

noncomputable section

open scoped BigOperators

namespace Cert.Spec
open Idealize.ShloMosaic Idealize.ShloMosaic.ValueIdx

/-- Entry (k, q) of the masked weight: W where the mask is not zero, 0 elsewhere. -/
def maskedW (mask W : (⟨2, ![4096, 4096]⟩ : Shape).Idx → EReal) (k q : Fin 4096) : EReal :=
  if mask (ix2 k q) ≠ 0 then W (ix2 k q) else 0

/-- Entry (r, q) of x · maskedW + b. -/
def out (x : (⟨2, ![2048, 4096]⟩ : Shape).Idx → EReal) (mask W : (⟨2, ![4096, 4096]⟩ : Shape).Idx → EReal)
    (b : (⟨1, ![4096]⟩ : Shape).Idx → EReal) (r : Fin 2048) (q : Fin 4096) : EReal :=
  (∑ k : Fin 4096, x (ix2 r k) * maskedW mask W k q) + b (ix1 q)

/-- The same two as whole arrays. -/
def maskedWArr (mask W : (⟨2, ![4096, 4096]⟩ : Shape).Idx → EReal) : (⟨2, ![4096, 4096]⟩ : Shape).Idx → EReal :=
  fun i => maskedW mask W (i 0) (i 1)

def outArr (x : (⟨2, ![2048, 4096]⟩ : Shape).Idx → EReal) (mask W : (⟨2, ![4096, 4096]⟩ : Shape).Idx → EReal)
    (b : (⟨1, ![4096]⟩ : Shape).Idx → EReal) : (⟨2, ![2048, 4096]⟩ : Shape).Idx → EReal :=
  fun i => out x mask W b (i 0) (i 1)

/-- A sum taken in `n` consecutive blocks of 512 terms is the sum over the first `n * 512` terms. Only associativity and
    commutativity of addition are used, so no term need be finite. -/
theorem sum_blocks (g : ℕ → EReal) (n : ℕ) :
    ∑ kb ∈ Finset.range n, ∑ kk : Fin 512, g (kb * 512 + kk.val) = ∑ j ∈ Finset.range (n * 512), g j := by
  induction n with
  | zero => simp
  | succ n ih =>
    rw [Finset.sum_range_succ, ih, Nat.succ_mul, Finset.sum_range_add,
      Fin.sum_univ_eq_sum_range (fun j => g (n * 512 + j)) 512]

/-- A sum over the naturals below 4096 of a function defined on `Fin 4096` is the sum over `Fin 4096`. -/
theorem sum_range_fin (f : Fin 4096 → EReal) :
    ∑ j ∈ Finset.range 4096, (if h : j < 4096 then f ⟨j, h⟩ else 0) = ∑ k : Fin 4096, f k := by
  rw [← Fin.sum_univ_eq_sum_range (fun j => if h : j < 4096 then f ⟨j, h⟩ else 0) 4096]
  refine Finset.sum_congr rfl fun k _ => ?_
  rw [dif_pos k.isLt]

end Cert.Spec

end
-- ==== Proof.MaskValue.lean ====
/- The value of the masking stage over the extended reals. At every grid point the body stores, entry by
   entry, the weight where the mask is not zero and 0 elsewhere; the mask, the weight and the output are
   cut into the same 512 x 2048 blocks, one block per grid point, and the 8 x 2 blocks tile the
   4096 x 4096 array. So after the stage the output array is the masked weight at every index. -/
import proofs.«148055_j68899865362757_2_alg».proof.Proof.MaskRegion
import proofs.«148055_j68899865362757_2_alg».proof.Proof.Spec
import Idealize.ShloMosaic.Lib.Pipeline.Value
import Idealize.ShloMosaic.Lib.ValueIdx
import Idealize.ShloMosaic.PureOps.Ideal.Laws

noncomputable section

namespace Cert.KernelIdeal.MaskValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of the whole-block rectangle are zero on both axes. -/
theorem zero_off : (![0, 0] : Fin 2 → Nat) = fun _ => 0 := funext fun a => by fin_cases a <;> rfl

/-- The bf16 word 0x0000 is the extended real 0. -/
theorem bf16_zero : Ideal.ofBits .bf16 0x0000#16 = 0 := by simp [Ideal.ofBits, Ideal.ieee]

/-- The masked weight array at an index, without splitting the index into its two coordinates. -/
theorem maskedWArr_apply (mask W : (⟨2, ![4096, 4096]⟩ : Shape).Idx → EReal) (i : (⟨2, ![4096, 4096]⟩ : Shape).Idx) :
    Cert.Spec.maskedWArr mask W i = if mask i ≠ 0 then W i else 0 := by
  obtain ⟨p, q, rfl⟩ : ∃ (p : Fin 4096) (q : Fin 4096), i = ix2 p q := ⟨i 0, i 1, eq_ix2 i⟩
  rfl

/-- One entry of the body's stored value: rounding to bf16 is the identity on the extended reals, the
    comparison "ordered and not equal" against the zero splat is the test xm y ≠ 0, and the select takes
    the weight where the test holds and the bf16 zero elsewhere. -/
theorem masked_at (xw xm : Vec Ideal S512x2048 .f32) (y : S512x2048.Idx) :
    k0_pay1 (F := Ideal) xw xm y = if xm y ≠ 0 then xw y else 0 := by
  unfold k0_pay1
  show Scalar.select (Ideal.cmp .one (xm y) (Ideal.ofBits .f32 0x00000000#32)) (xw y) (Ideal.ofBits .bf16 0x0000#16) = _
  rw [Ideal.ofBits_zero_f32, bf16_zero]
  unfold Scalar.select Ideal.cmp
  by_cases h : xm y = 0
  · simp [h]
  · simp [h]

/-- The three windows move together: at every grid point the mask window, the weight window and the
    output window sit at the same block index on both axes. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every block (q0, q1) of the 8 x 2 tiling of the output is the block of some grid point. -/
theorem every_block : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- One entry of the output block from the entries of the two input blocks at the same place: if those are
    the mask and the weight at array index i, the entry is the masked weight at i. -/
theorem point (xm xw : Vec Ideal S512x2048 .f32) (mask W : (⟨2, ![4096, 4096]⟩ : Shape).Idx → EReal)
    (y : S512x2048.Idx) (i : (⟨2, ![4096, 4096]⟩ : Shape).Idx) (hm : xm y = mask i) (hw : xw y = W i) :
    k0_pay1 (F := Ideal) xw xm y = Cert.Spec.maskedWArr mask W i := by
  rw [masked_at, maskedWArr_apply, hm, hw]

/-- What grid point t writes back is block t of the masked weight array. -/
theorem flushed_eq (c : Dev nD) (t : Fin cfg0.N) :
    (Mask.dat (F := Ideal) V c).flushed 2 t
      = ((cfg0.win 2).blk t).view.read (Elt Ideal) (Cert.Spec.maskedWArr (V c main_arg1) (V c main_arg2)) := by
  show (cfg0.win 2).cut (grid0.coords t) ((Mask.dat V c).after 2 t) = _
  rw [Mask.after_2]
  unfold Mask.out
  rw [View.canon_unit_zero zero_off]
  simp only [View.ld_unit_zero (S := S512x2048) zero_off]
  obtain ⟨e0, e1, e2, e3⟩ := same_block t
  funext j
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  refine point (Mask.blk V c 0 t) (Mask.blk V c 1 t) (V c main_arg1) (V c main_arg2) j (((cfg0.win 2).blk t).view.emb j) ?_ ?_
  · show V c main_arg1 (((cfg0.win 0).blk t).view.emb j) = V c main_arg1 (((cfg0.win 2).blk t).view.emb j)
    rw [h0]
  · show V c main_arg2 (((cfg0.win 1).blk t).view.emb j) = V c main_arg2 (((cfg0.win 2).blk t).view.emb j)
    rw [h1]

/-- An index of the output array lies in point t's block iff on each axis it lies in the block's range. -/
theorem mem_blk (t : Fin cfg0.N) (i : S4096x4096.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- The blocks tile the array: row r lies in block row r / 512, column q in block column q / 2048. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := every_block ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the masking stage the output array is the masked weight, entry by entry. -/
theorem wm_final (c : Dev nD) :
    (Mask.dat (F := Ideal) V c).arrAt 2 cfg0.N = Cert.Spec.maskedWArr (V c main_arg1) (V c main_arg2) :=
  (Mask.dat (F := Ideal) V c).arrAt_eq_of_cover 2 (Cert.Spec.maskedWArr (V c main_arg1) (V c main_arg2))
    (fun t _ => flushed_eq V c t) covered

end Cert.KernelIdeal.MaskValue

end
-- ==== Proof.AccPieces.lean ====
/- Region 1, the accumulating product: what each control case of the body leaves, read back as the body's own
   stored values. A middle point and the store point leave in the scratch what it held plus the block product; a
   reset point leaves the zero block plus the block product; the store point leaves in the output block the
   scratch it has just written plus the bias row. Each store covers its whole buffer and each load reads a whole
   buffer, so the pieces read back are the stored values themselves. -/
import proofs.«148055_j68899865362757_2_alg».proof.Proof.AccRegion
import Idealize.ShloMosaic.Lib.Pipeline.Value
import Idealize.ShloMosaic.Lib.Tactic

noncomputable section

namespace Cert.KernelIdeal.AccPieces

open Cert.KernelIdeal Cert.KernelIdeal.Gen Idealize.ShloMosaic Idealize.ShloMosaic.TcCoe Idealize.SL.Sem
open Idealize.ShloMosaic.Tactic

variable {F : FTy → Type} [FloatOps F]

/-- The offsets of the whole-block rectangle are zero on both axes. -/
theorem zero_off : (![0, 0] : Fin 2 → Nat) = fun _ => 0 := funext fun a => by fin_cases a <;> rfl

/-- A middle point leaves in the scratch what it held plus the block product. -/
theorem accStep_eq (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬Acc.isFirst i) (h1 : ¬Acc.isLast i)
    (x0 : Vec F S1024x512 .f32) (x1 : Vec F S512x2048 .bf16) (x2 : Vec F S1x2048 .f32) (xs : Vec F S1024x2048 .f32) :
    Acc.accStep c i ax hax aw haw ab hab ao hao acm hacm h0 h1 x0 x1 x2 xs = k1_pay2 x0 xs x1 := by
  unfold Acc.accStep
  rw [View.read_writes_eq_canon _ _ _ (Acc.accStep_covers c i ax hax aw haw ab hab ao hao acm hacm h0 h1 x0 x1 x2 xs)]
  unfold Acc.runStep
  dsimp only
  rw [View.canon_unit_zero zero_off]
  simp only [View.readAt_eq_ld, hax.read_unread, haw.read_unread, hacm.read_unread,
    View.ld_unit_zero (S := S1024x512) zero_off, View.ld_unit_zero (S := S1024x2048) zero_off,
    View.ld_unit_zero (S := S512x2048) zero_off]

/-- A reset point leaves in the scratch the zero block plus the block product: the zero block is stored first and
    read back whole. -/
theorem accReset_eq (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : Acc.isFirst i) (h1 : ¬Acc.isLast i)
    (x0 : Vec F S1024x512 .f32) (x1 : Vec F S512x2048 .bf16) (x2 : Vec F S1x2048 .f32) :
    Acc.accReset c i ax hax aw haw ab hab ao hao acm hacm h0 h1 x0 x1 x2 = k1_pay2 x0 (k1_pay1 (F := F)) x1 := by
  unfold Acc.accReset
  rw [View.read_writes_eq_canon _ _ _ (Acc.accReset_covers c i ax hax aw haw ab hab ao hao acm hacm h0 h1 x0 x1 x2)]
  unfold Acc.runReset
  dsimp only
  sl_unfold_words
  rw [View.canon_cons_unit_zero (S := S1024x2048) zero_off, View.readCov_unit_zero (S := S1024x2048) _ zero_off]
  simp only [View.readAt_eq_ld, hax.read_unread, haw.read_unread,
    View.ld_unit_zero (S := S1024x512) zero_off, View.ld_unit_zero (S := S512x2048) zero_off]

/-- The store point leaves in the scratch what it held plus the block product, as a middle point does. -/
theorem accStore_eq (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬Acc.isFirst i) (h1 : Acc.isLast i)
    (x0 : Vec F S1024x512 .f32) (x1 : Vec F S512x2048 .bf16) (x2 : Vec F S1x2048 .f32) (xs : Vec F S1024x2048 .f32) :
    Acc.accStore c i ax hax aw haw ab hab ao hao acm hacm h0 h1 x0 x1 x2 xs = k1_pay2 x0 xs x1 := by
  unfold Acc.accStore
  rw [View.read_writes_eq_canon _ _ _ (Acc.accStore_covers c i ax hax aw haw ab hab ao hao acm hacm h0 h1 x0 x1 x2 xs)]
  unfold Acc.runStore
  dsimp only
  sl_unfold_words
  rw [View.canon_unit_zero zero_off]
  simp only [View.readAt_eq_ld, hax.read_unread, haw.read_unread, hacm.read_unread,
    View.ld_unit_zero (S := S1024x512) zero_off, View.ld_unit_zero (S := S1024x2048) zero_off,
    View.ld_unit_zero (S := S512x2048) zero_off]

/-- The store point leaves in the output block the scratch it has just written, read back whole, plus the bias row. -/
theorem outStore_eq (c : Dev nD) (i : grid1.Coords) (ax : Memref sig .tc .vmem S1024x512 .f32) (hax : ax.IsWhole) (aw : Memref sig .tc .vmem S512x2048 .bf16) (haw : aw.IsWhole) (ab : Memref sig .tc .vmem S1x2048 .f32) (hab : ab.IsWhole) (ao : Memref sig .tc .vmem S1024x2048 .f32) (hao : ao.IsWhole) (acm : Memref sig .tc .vmem S1024x2048 .f32) (hacm : acm.IsWhole) (h0 : ¬Acc.isFirst i) (h1 : Acc.isLast i)
    (x0 : Vec F S1024x512 .f32) (x1 : Vec F S512x2048 .bf16) (x2 : Vec F S1x2048 .f32) (xs : Vec F S1024x2048 .f32) :
    Acc.outStore c i ax hax aw haw ab hab ao hao acm hacm h0 h1 x0 x1 x2 xs = k1_pay3 (k1_pay2 x0 xs x1) x2 := by
  unfold Acc.outStore
  rw [View.read_writes_eq_canon _ _ _ (Acc.outStore_covers c i ax hax aw haw ab hab ao hao acm hacm h0 h1 x0 x1 x2 xs)]
  unfold Acc.runStore
  dsimp only
  sl_unfold_words
  rw [View.canon_unit_zero zero_off, View.readCov_unit_zero (S := S1024x2048) _ zero_off]
  simp only [View.readAt_eq_ld, hax.read_unread, haw.read_unread, hab.read_unread, hacm.read_unread,
    View.ld_unit_zero (S := S1024x512) zero_off, View.ld_unit_zero (S := S1024x2048) zero_off,
    View.ld_unit_zero (S := S512x2048) zero_off, View.ld_unit_zero (S := S1x2048) zero_off]

end Cert.KernelIdeal.AccPieces

end
-- ==== Proof.AccPayload.lean ====
import proofs.«148055_j68899865362757_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! The three values the accumulating matrix-product body stores, read entry by entry over the extended reals:
    the zero block, the accumulator plus a 512-term partial product, and the accumulator plus the bias row. -/

noncomputable section

open scoped BigOperators

namespace Cert.KernelIdeal.AccPayload

open Cert.KernelIdeal Cert.KernelIdeal.Gen Idealize.ShloMosaic Idealize.ShloMosaic.ValueIdx

/-- The block that resets the accumulator is 0 at every entry. -/
theorem reset_apply (y : S1024x2048.Idx) : k1_pay1 (F := Ideal) y = 0 := by
  unfold k1_pay1
  rw [shapeCast_self]
  show Ideal.ofBits .f32 0x00000000#32 = 0
  exact Ideal.ofBits_zero_f32

/-- In term k of the block product at entry (r, q), the left operand's row coordinate is r. -/
theorem lhs_0 (i : S1024x2048.Idx) (c : dot_S1024x512_S512x2048_S1024x2048_1_0_0_1_n_n.contr.Idx) :
    (dot_S1024x512_S512x2048_S1024x2048_1_0_0_1_n_n.lhsIdx i c 0).val = (i 0).val := by
  unfold DotDims.lhsIdx
  rw [dif_neg (show ¬(0 : Fin S1024x512.rank) ∈ dot_S1024x512_S512x2048_S1024x2048_1_0_0_1_n_n.lhsBatch by decide),
    dif_pos (show (0 : Fin S1024x512.rank) ∈ dot_S1024x512_S512x2048_S1024x2048_1_0_0_1_n_n.lhsNonContracting by decide)]
  rfl

/-- The left operand's column coordinate is the contraction index. -/
theorem lhs_1 (i : S1024x2048.Idx) (c : dot_S1024x512_S512x2048_S1024x2048_1_0_0_1_n_n.contr.Idx) :
    (dot_S1024x512_S512x2048_S1024x2048_1_0_0_1_n_n.lhsIdx i c 1).val = (c ⟨0, by decide⟩).val :=
  dot_S1024x512_S512x2048_S1024x2048_1_0_0_1_n_n.lhsIdx_val_of_single rfl i c

/-- The right operand's row coordinate is the contraction index. -/
theorem rhs_0 (i : S1024x2048.Idx) (c : dot_S1024x512_S512x2048_S1024x2048_1_0_0_1_n_n.contr.Idx) :
    (dot_S1024x512_S512x2048_S1024x2048_1_0_0_1_n_n.rhsIdx i c 0).val = (c ⟨0, by decide⟩).val :=
  dot_S1024x512_S512x2048_S1024x2048_1_0_0_1_n_n.rhsIdx_val_of_single rfl i c

/-- The right operand's column coordinate is q. -/
theorem rhs_1 (i : S1024x2048.Idx) (c : dot_S1024x512_S512x2048_S1024x2048_1_0_0_1_n_n.contr.Idx) :
    (dot_S1024x512_S512x2048_S1024x2048_1_0_0_1_n_n.rhsIdx i c 1).val = (i 1).val := by
  unfold DotDims.rhsIdx
  rw [dif_neg (show ¬(1 : Fin S512x2048.rank) ∈ dot_S1024x512_S512x2048_S1024x2048_1_0_0_1_n_n.rhsBatch by decide),
    dif_pos (show (1 : Fin S512x2048.rank) ∈ dot_S1024x512_S512x2048_S1024x2048_1_0_0_1_n_n.rhsNonContracting by decide)]
  rfl

/-- The block product into the zero accumulator, at entry (r, q): the 512-term sum of row r of the left block against
    column q of the right block. -/
theorem matmul_block_apply (l : FVec Ideal S1024x512 .bf16) (w : FVec Ideal S512x2048 .bf16) (r : Fin 1024) (q : Fin 2048) :
    matmul dot_S1024x512_S512x2048_S1024x2048_1_0_0_1_n_n none l w (constant (F := Ideal) S1024x2048 .f32 0x00000000#32) (ix2 r q)
      = ∑ kk : Fin 512, l (ix2 r kk) * w (ix2 kk q) := by
  simp only [matmul]
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 r q) ((contrEquiv1 dot_S1024x512_S512x2048_S1024x2048_1_0_0_1_n_n 512 rfl rfl).symm k) = ix2 r k := funext fun a => Fin.ext (by
    match a with
    | ⟨0, _⟩ => exact lhs_0 _ _
    | ⟨1, _⟩ => exact (lhs_1 _ _).trans hk)
  have er : dot_S1024x512_S512x2048_S1024x2048_1_0_0_1_n_n.rhsIdx (ix2 r q) ((contrEquiv1 dot_S1024x512_S512x2048_S1024x2048_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- One accumulation step at entry (r, q): the accumulator plus the 512-term partial product. -/
theorem step_apply (x0 : Vec Ideal S1024x512 .f32) (xs : Vec Ideal S1024x2048 .f32) (w : Vec Ideal S512x2048 .bf16)
    (r : Fin 1024) (q : Fin 2048) :
    k1_pay2 (F := Ideal) x0 xs w (ix2 r q) = xs (ix2 r q) + ∑ kk : Fin 512, x0 (ix2 r kk) * w (ix2 kk q) := by
  unfold k1_pay2
  rw [shapeCast_self, shapeCast_self]
  refine (addf_apply _ _ _).trans ?_
  refine congrArg (fun t => xs (ix2 r q) + t) ?_
  exact matmul_block_apply _ w r q

/-- The stored result at entry (r, q): the accumulator plus the bias row at q. -/
theorem store_apply (acc : Vec Ideal S1024x2048 .f32) (b : Vec Ideal S1x2048 .f32) (r : Fin 1024) (q : Fin 2048) :
    k1_pay3 (F := Ideal) acc b (ix2 r q) = acc (ix2 r q) + b (ix2 (0 : Fin 1) q) := by
  unfold k1_pay3
  rw [shapeCast_self]
  refine (addf_apply _ _ _).trans ?_
  refine congrArg (fun t => acc (ix2 r q) + t) ?_
  exact broadcastTo_1b_ab_apply b _ r q

end Cert.KernelIdeal.AccPayload

end
-- ==== Proof.AccBlocks.lean ====
/- Region 1 reads its operands and writes its result in blocks. At grid position t = (i, j, k), with
   i = t / 16, j = (t / 8) % 2 and k = t % 8, the x block is rows i·1024 … and columns k·512 … of x, the
   masked-weight block is rows k·512 … and columns j·2048 … of the masked weight, the bias block is
   columns j·2048 … of the bias row, and the output block is rows i·1024 … and columns j·2048 … of the
   result. The output blocks written back at k = 7 tile the 2048 x 4096 result. -/
import proofs.«148055_j68899865362757_2_alg».proof.Proof.AccShared
import Idealize.ShloMosaic.Lib.Pipeline.Value
import Idealize.ShloMosaic.Lib.ValueIdx

set_option maxRecDepth 16384

noncomputable section

namespace Cert.KernelIdeal.AccBlocks

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-- The grid has 32 positions. -/
theorem pos_lt (t : Fin cfg1.N) : t.val < 32 := lt_of_lt_of_eq t.isLt N_1

/-- The block index of each window at position t, on each axis, in terms of (i, j, k) = (t / 16, (t / 8) % 2, t % 8):
    x sits at (i, k), the masked weight at (k, j), the bias at (0, j), the output at (i, j). -/
theorem block_index : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = (t.val / 8) % 2
    ∧ win1_2.index t (0 : Fin 2) = 0 ∧ win1_2.index t (1 : Fin 2) = (t.val / 8) % 2
    ∧ win1_3.index t (0 : Fin 2) = t.val / 16 ∧ win1_3.index t (1 : Fin 2) = (t.val / 8) % 2 :=
  (by decide +kernel : ∀ t : Fin grid1.N, _)

/-- Entry (rr, kk) of the x block at position t is entry (i·1024 + rr, k·512 + kk) of x. -/
theorem x_block (c : Dev nD) (t : Fin cfg1.N) (rr : Fin 1024) (kk : Fin 512) :
    Acc.blk V c 0 t (ix2 rr kk)
      = V c main_arg0 (ix2 (⟨(t.val / 16) * 1024 + rr.val, by have := pos_lt t; omega⟩ : Fin 2048)
          (⟨(t.val % 8) * 512 + kk.val, by omega⟩ : Fin 4096)) := by
  obtain ⟨e0, e1, -⟩ := block_index t
  show V c main_arg0 (((cfg1.win 0).blk t).view.emb (ix2 rr kk)) = V c main_arg0 _
  refine congrArg (V c main_arg0) ?_
  funext a; apply Fin.ext
  match a with
  | ⟨0, _⟩ => show win1_0.index t (0 : Fin 2) * 1024 + 1 * rr.val = (t.val / 16) * 1024 + rr.val; omega
  | ⟨1, _⟩ => show win1_0.index t (1 : Fin 2) * 512 + 1 * kk.val = (t.val % 8) * 512 + kk.val; omega

/-- Entry (kk, qq) of the masked-weight block at position t is entry (k·512 + kk, j·2048 + qq) of the masked weight. -/
theorem w_block (c : Dev nD) (t : Fin cfg1.N) (kk : Fin 512) (qq : Fin 2048) :
    Acc.blk V c 1 t (ix2 kk qq)
      = V c main_v0 (ix2 (⟨(t.val % 8) * 512 + kk.val, by omega⟩ : Fin 4096)
          (⟨((t.val / 8) % 2) * 2048 + qq.val, by omega⟩ : Fin 4096)) := by
  obtain ⟨-, -, e0, e1, -⟩ := block_index t
  show V c main_v0 (((cfg1.win 1).blk t).view.emb (ix2 kk qq)) = V c main_v0 _
  refine congrArg (V c main_v0) ?_
  funext a; apply Fin.ext
  match a with
  | ⟨0, _⟩ => show win1_1.index t (0 : Fin 2) * 512 + 1 * kk.val = (t.val % 8) * 512 + kk.val; omega
  | ⟨1, _⟩ => show win1_1.index t (1 : Fin 2) * 2048 + 1 * qq.val = ((t.val / 8) % 2) * 2048 + qq.val; omega

/-- Entry (0, qq) of the bias block at position t is entry (0, j·2048 + qq) of the bias row. -/
theorem b_block (c : Dev nD) (t : Fin cfg1.N) (qq : Fin 2048) :
    Acc.blk V c 2 t (ix2 (0 : Fin 1) qq)
      = V c main_v1 (ix2 (0 : Fin 1) (⟨((t.val / 8) % 2) * 2048 + qq.val, by omega⟩ : Fin 4096)) := by
  obtain ⟨-, -, -, -, e0, e1, -⟩ := block_index t
  show V c main_v1 (((cfg1.win 2).blk t).view.emb (ix2 (0 : Fin 1) qq)) = V c main_v1 _
  refine congrArg (V c main_v1) ?_
  funext a; apply Fin.ext
  match a with
  | ⟨0, _⟩ => show win1_2.index t (0 : Fin 2) * 1 + 1 * 0 = 0; omega
  | ⟨1, _⟩ => show win1_2.index t (1 : Fin 2) * 2048 + 1 * qq.val = ((t.val / 8) % 2) * 2048 + qq.val; omega

/-- Entry (rr, qq) of the output block at position t, read off any whole result array G, is entry
    (i·1024 + rr, j·2048 + qq) of G. -/
theorem out_block (t : Fin cfg1.N) (G : S2048x4096.Idx → Elt F .f32) (rr : Fin 1024) (qq : Fin 2048) :
    ((cfg1.win 3).blk t).view.read (Elt F) G (ix2 rr qq)
      = G (ix2 (⟨(t.val / 16) * 1024 + rr.val, by have := pos_lt t; omega⟩ : Fin 2048)
          (⟨((t.val / 8) % 2) * 2048 + qq.val, by omega⟩ : Fin 4096)) := by
  obtain ⟨-, -, -, -, -, -, e0, e1⟩ := block_index t
  show G (((cfg1.win 3).blk t).view.emb (ix2 rr qq)) = G _
  refine congrArg G ?_
  funext a; apply Fin.ext
  match a with
  | ⟨0, _⟩ => show win1_3.index t (0 : Fin 2) * 1024 + 1 * rr.val = (t.val / 16) * 1024 + rr.val; omega
  | ⟨1, _⟩ => show win1_3.index t (1 : Fin 2) * 2048 + 1 * qq.val = ((t.val / 8) % 2) * 2048 + qq.val; omega

/-- An index of the result lies in position t's output block iff on each axis it lies in the block's range. -/
theorem mem_out_block (t : Fin cfg1.N) (i : S2048x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v2).slice (win1_3.rect t)).set ↔ _
  rw [View.set_slice_whole, Rect.mem_set_unit]
  exact Iff.rfl

/-- The output blocks written back tile the result: entry (r, q) lies in the block of the position with
    i = r / 1024, j = q / 2048 and k = 7, which is written back. -/
theorem out_covered (i : S2048x4096.Idx) :
    ∃ t : Fin cfg1.N, (cfg1.win 3).flush t = true ∧ i ∈ ((cfg1.win 3).blk t).view.set := by
  have hi0 : (i 0).val < 2048 := (i 0).isLt
  have hi1 : (i 1).val < 4096 := (i 1).isLt
  obtain ⟨t, ht⟩ : ∃ t : Fin cfg1.N, t.val = (i 0).val / 1024 * 16 + (i 1).val / 2048 * 8 + 7 :=
    ⟨⟨(i 0).val / 1024 * 16 + (i 1).val / 2048 * 8 + 7, by rw [show cfg1.N = 32 from N_1]; omega⟩, rfl⟩
  obtain ⟨-, -, -, -, -, -, e0, e1⟩ := block_index t
  refine ⟨t, (flush1_3 t).mpr (by omega), ?_⟩
  rw [mem_out_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

end Cert.KernelIdeal.AccBlocks

end
-- ==== Proof.AccValue.lean ====
/- The value of the accumulating product over the extended reals. Position n of the grid is (i, j, k) with
   i = n / 16, j = (n / 8) % 2, k = n % 8. For a row R and a column Q of the result write
   g m = x(R, m) · wm(m, Q) for m < 4096. After position n the scratch holds, at entry (rr, qq), the partial sum
   of g over m < (k + 1)·512 for R = i·1024 + rr and Q = j·2048 + qq: at k = 0 the zero block plus the first 512
   terms, afterwards what the position before left plus the next 512 terms. At k = 7 all 4096 terms are there and
   the output block is stored as that sum plus the bias; the output blocks tile the result. Only associativity
   and commutativity of addition are used, so no entry needs to be finite. -/
import proofs.«148055_j68899865362757_2_alg».proof.Proof.AccRegion
import proofs.«148055_j68899865362757_2_alg».proof.Proof.AccPieces
import proofs.«148055_j68899865362757_2_alg».proof.Proof.AccPayload
import proofs.«148055_j68899865362757_2_alg».proof.Proof.AccBlocks
import proofs.«148055_j68899865362757_2_alg».proof.Proof.Spec

set_option maxRecDepth 16384

noncomputable section

open scoped BigOperators

namespace Cert.KernelIdeal.AccValue

open Cert.KernelIdeal Cert.KernelIdeal.Gen Idealize.ShloMosaic Idealize.ShloMosaic.TcCoe Idealize.SL.Sem
open Idealize.ShloMosaic.Pipeline (Dat)
open Idealize.ShloMosaic.ValueIdx

/-- Entry i of x · wm + b2, the bias given as a 1 x 4096 row. -/
def G (X : (⟨2, ![2048, 4096]⟩ : Shape).Idx → EReal) (WM : (⟨2, ![4096, 4096]⟩ : Shape).Idx → EReal)
    (B2 : (⟨2, ![1, 4096]⟩ : Shape).Idx → EReal) : (⟨2, ![2048, 4096]⟩ : Shape).Idx → EReal :=
  fun i => (∑ k : Fin 4096, X (ix2 (i 0) k) * WM (ix2 k (i 1))) + B2 (ix2 (0 : Fin 1) (i 1))

/-- Term m of entry (R, Q) of the product, as a function on the naturals (0 from 4096 on). -/
def term (X : (⟨2, ![2048, 4096]⟩ : Shape).Idx → EReal) (WM : (⟨2, ![4096, 4096]⟩ : Shape).Idx → EReal)
    (R : Fin 2048) (Q : Fin 4096) (m : ℕ) : EReal :=
  if h : m < 4096 then X (ix2 R ⟨m, h⟩) * WM (ix2 ⟨m, h⟩ Q) else 0

/-- One accumulation step at one entry. If the x block's row rr is columns kb·512 … of row R of x, the weight
    block's column qq is rows kb·512 … of column Q of wm, and the scratch held the sum of the first kb·512 terms,
    then the step leaves the sum of the first (kb + 1)·512 terms. -/
theorem step_entry (kb : ℕ) (hkb : kb < 8) (x0 : Vec Ideal S1024x512 .f32) (xs : Vec Ideal S1024x2048 .f32)
    (w : Vec Ideal S512x2048 .bf16) (X : (⟨2, ![2048, 4096]⟩ : Shape).Idx → EReal)
    (WM : (⟨2, ![4096, 4096]⟩ : Shape).Idx → EReal) (R : Fin 2048) (Q : Fin 4096) (rr : Fin 1024) (qq : Fin 2048)
    (hx : ∀ kk : Fin 512, x0 (ix2 rr kk) = X (ix2 R (⟨kb * 512 + kk.val, by omega⟩ : Fin 4096)))
    (hw : ∀ kk : Fin 512, w (ix2 kk qq) = WM (ix2 (⟨kb * 512 + kk.val, by omega⟩ : Fin 4096) Q))
    (hs : xs (ix2 rr qq) = ∑ m ∈ Finset.range (kb * 512), term X WM R Q m) :
    k1_pay2 (F := Ideal) x0 xs w (ix2 rr qq) = ∑ m ∈ Finset.range ((kb + 1) * 512), term X WM R Q m := by
  rw [AccPayload.step_apply x0 xs w rr qq, hs, Nat.succ_mul, Finset.sum_range_add]
  refine congrArg (fun s => (∑ m ∈ Finset.range (kb * 512), term X WM R Q m) + s) ?_
  rw [← Fin.sum_univ_eq_sum_range (fun j => term X WM R Q (kb * 512 + j)) 512]
  refine Finset.sum_congr rfl fun kk _ => ?_
  rw [hx kk, hw kk]
  unfold term
  rw [dif_pos (show kb * 512 + kk.val < 4096 by omega)]

/-- The stored result at one entry, at the last step of a row of blocks (kb = 7): the scratch then holds all 4096
    terms, and adding the bias gives entry (R, Q) of x · wm + b2. -/
theorem store_entry (kb : ℕ) (hk : kb = 7) (x0 : Vec Ideal S1024x512 .f32) (xs : Vec Ideal S1024x2048 .f32)
    (w : Vec Ideal S512x2048 .bf16) (b : Vec Ideal S1x2048 .f32) (X : (⟨2, ![2048, 4096]⟩ : Shape).Idx → EReal)
    (WM : (⟨2, ![4096, 4096]⟩ : Shape).Idx → EReal) (B2 : (⟨2, ![1, 4096]⟩ : Shape).Idx → EReal)
    (R : Fin 2048) (Q : Fin 4096) (rr : Fin 1024) (qq : Fin 2048)
    (hx : ∀ kk : Fin 512, x0 (ix2 rr kk) = X (ix2 R (⟨kb * 512 + kk.val, by omega⟩ : Fin 4096)))
    (hw : ∀ kk : Fin 512, w (ix2 kk qq) = WM (ix2 (⟨kb * 512 + kk.val, by omega⟩ : Fin 4096) Q))
    (hs : xs (ix2 rr qq) = ∑ m ∈ Finset.range (kb * 512), term X WM R Q m)
    (hb : b (ix2 (0 : Fin 1) qq) = B2 (ix2 (0 : Fin 1) Q)) :
    k1_pay3 (F := Ideal) (k1_pay2 x0 xs w) b (ix2 rr qq) = G X WM B2 (ix2 R Q) := by
  subst hk
  rw [AccPayload.store_apply (k1_pay2 x0 xs w) b rr qq, step_entry 7 (by omega) x0 xs w X WM R Q rr qq hx hw hs, hb]
  show (∑ m ∈ Finset.range 4096, term X WM R Q m) + _ = (∑ k : Fin 4096, X (ix2 R k) * WM (ix2 k Q)) + _
  rw [← Cert.Spec.sum_range_fin (fun k => X (ix2 R k) * WM (ix2 k Q))]
  rfl

variable (V : (c : Dev nD) → (b : Ref sig .tc) → Buf (Elt Ideal) ((c : Thread nD τ).loc b))

/-- Row rr of the x block at position t is a stretch of row R of x, for R = i·1024 + rr. -/
theorem x_at (c : Dev nD) (t : Fin cfg1.N) (rr : Fin 1024) (kk : Fin 512) (R : Fin 2048)
    (hR : R.val = t.val / 16 * 1024 + rr.val) :
    Acc.blk V c 0 t (ix2 rr kk) = V c main_arg0 (ix2 R (⟨(t.val % 8) * 512 + kk.val, by omega⟩ : Fin 4096)) := by
  refine (AccBlocks.x_block V c t rr kk).trans ?_
  exact congrArg (fun r : Fin 2048 => V c main_arg0 (ix2 r (⟨(t.val % 8) * 512 + kk.val, by omega⟩ : Fin 4096)))
    (Fin.ext hR.symm)

/-- Column qq of the masked-weight block at position t is a stretch of column Q of wm, for Q = j·2048 + qq. -/
theorem w_at (c : Dev nD) (t : Fin cfg1.N) (kk : Fin 512) (qq : Fin 2048) (Q : Fin 4096)
    (hQ : Q.val = (t.val / 8 % 2) * 2048 + qq.val) :
    Acc.blk V c 1 t (ix2 kk qq) = V c main_v0 (ix2 (⟨(t.val % 8) * 512 + kk.val, by omega⟩ : Fin 4096) Q) := by
  refine (AccBlocks.w_block V c t kk qq).trans ?_
  exact congrArg (fun q : Fin 4096 => V c main_v0 (ix2 (⟨(t.val % 8) * 512 + kk.val, by omega⟩ : Fin 4096) q))
    (Fin.ext hQ.symm)

/-- Entry qq of the bias block at position t is entry Q of the bias row. -/
theorem b_at (c : Dev nD) (t : Fin cfg1.N) (qq : Fin 2048) (Q : Fin 4096)
    (hQ : Q.val = (t.val / 8 % 2) * 2048 + qq.val) :
    Acc.blk V c 2 t (ix2 (0 : Fin 1) qq) = V c main_v1 (ix2 (0 : Fin 1) Q) := by
  refine (AccBlocks.b_block V c t qq).trans ?_
  exact congrArg (fun q : Fin 4096 => V c main_v1 (ix2 (0 : Fin 1) q)) (Fin.ext hQ.symm)

/-- THE INVARIANT: after position n the scratch holds, at entry (rr, qq), the first (k + 1)·512 terms of entry
    (R, Q) of the product, for R = i·1024 + rr and Q = j·2048 + qq. -/
theorem scratch_at (c : Dev nD) (n : ℕ) (hn : n < cfg1.N) (rr : Fin 1024) (qq : Fin 2048) (R : Fin 2048) (Q : Fin 4096)
    (hR : R.val = n / 16 * 1024 + rr.val) (hQ : Q.val = (n / 8 % 2) * 2048 + qq.val) :
    (Acc.outsAt V c n hn).2 (ix2 rr qq)
      = ∑ m ∈ Finset.range ((n % 8 + 1) * 512), term (V c main_arg0) (V c main_v0) R Q m := by
  induction n using Nat.strong_induction_on with
  | _ n ih =>
  have h32 : n < 32 := lt_of_lt_of_eq hn N_1
  by_cases h0 : n % 8 = 0
  · have h1 : ¬n % 8 = 7 := by omega
    refine (congrFun (congrArg Prod.snd (Acc.outsAt_reset V c ⟨n, hn⟩ h0 h1)) (ix2 rr qq)).trans ?_
    dsimp only
    rw [AccPieces.accReset_eq]
    refine step_entry (n % 8) (by omega) (Acc.blk V c 0 ⟨n, hn⟩) (k1_pay1 (F := Ideal)) (Acc.blk V c 1 ⟨n, hn⟩)
      (V c main_arg0) (V c main_v0) R Q rr qq (fun kk => x_at V c ⟨n, hn⟩ rr kk R hR) (fun kk => w_at V c ⟨n, hn⟩ kk qq Q hQ) ?_
    rw [AccPayload.reset_apply, h0, Nat.zero_mul, Finset.range_zero, Finset.sum_empty]
  · have hprev : n - 1 < cfg1.N := Nat.lt_of_le_of_lt (Nat.sub_le _ _) hn
    have hs : (Acc.outsAt V c (n - 1) hprev).2 (ix2 rr qq)
        = ∑ m ∈ Finset.range (n % 8 * 512), term (V c main_arg0) (V c main_v0) R Q m := by
      rw [ih (n - 1) (by omega) hprev (by omega) (by omega), show (n - 1) % 8 + 1 = n % 8 by omega]
    by_cases h1 : n % 8 = 7
    · refine (congrFun (congrArg Prod.snd (Acc.outsAt_store V c ⟨n, hn⟩ h0 h1)) (ix2 rr qq)).trans ?_
      dsimp only
      rw [AccPieces.accStore_eq]
      exact step_entry (n % 8) (by omega) (Acc.blk V c 0 ⟨n, hn⟩) (Acc.outsAt V c (n - 1) hprev).2 (Acc.blk V c 1 ⟨n, hn⟩)
        (V c main_arg0) (V c main_v0) R Q rr qq (fun kk => x_at V c ⟨n, hn⟩ rr kk R hR) (fun kk => w_at V c ⟨n, hn⟩ kk qq Q hQ) hs
    · refine (congrFun (congrArg Prod.snd (Acc.outsAt_step V c ⟨n, hn⟩ h0 h1)) (ix2 rr qq)).trans ?_
      dsimp only
      rw [AccPieces.accStep_eq]
      exact step_entry (n % 8) (by omega) (Acc.blk V c 0 ⟨n, hn⟩) (Acc.outsAt V c (n - 1) hprev).2 (Acc.blk V c 1 ⟨n, hn⟩)
        (V c main_arg0) (V c main_v0) R Q rr qq (fun kk => x_at V c ⟨n, hn⟩ rr kk R hR) (fun kk => w_at V c ⟨n, hn⟩ kk qq Q hQ) hs

/-- What a position with k = 7 writes back is its block of x · wm + b2. -/
theorem flushed_eq (c : Dev nD) (t : Fin cfg1.N) (hf : (cfg1.win 3).flush t = true) :
    (Acc.dat (F := Ideal) V c).flushed 3 t
      = ((cfg1.win 3).blk t).view.read (Elt Ideal) (G (V c main_arg0) (V c main_v0) (V c main_v1)) := by
  have h1 : t.val % 8 = 7 := (flush1_3 t).mp hf
  have h0 : ¬t.val % 8 = 0 := by omega
  have h32 : t.val < 32 := AccBlocks.pos_lt t
  have hprev : t.val - 1 < cfg1.N := Nat.lt_of_le_of_lt (Nat.sub_le _ _) t.isLt
  show (cfg1.win 3).cut (grid1.coords t) ((Acc.dat V c).after 3 t) = _
  rw [Acc.after_out, Acc.outsAt_store V c t h0 h1]
  dsimp only
  rw [AccPieces.outStore_eq]
  refine funext fun (j : S1024x2048.Idx) => ?_
  obtain ⟨rr, qq, rfl⟩ : ∃ (rr : Fin 1024) (qq : Fin 2048), j = ix2 rr qq := ⟨j 0, j 1, eq_ix2 j⟩
  refine Eq.trans ?_ (AccBlocks.out_block (F := Ideal) t (G (V c main_arg0) (V c main_v0) (V c main_v1)) rr qq).symm
  have hR0 : t.val / 16 * 1024 + rr.val < 2048 := by omega
  have hQ0 : (t.val / 8 % 2) * 2048 + qq.val < 4096 := by omega
  refine store_entry (t.val % 8) h1 (Acc.blk V c 0 t) (Acc.outsAt V c (t.val - 1) hprev).2 (Acc.blk V c 1 t) (Acc.blk V c 2 t)
    (V c main_arg0) (V c main_v0) (V c main_v1) ⟨_, hR0⟩ ⟨_, hQ0⟩ rr qq
    (fun kk => x_at V c t rr kk ⟨_, hR0⟩ rfl) (fun kk => w_at V c t kk qq ⟨_, hQ0⟩ rfl) ?_ (b_at V c t qq ⟨_, hQ0⟩ rfl)
  rw [scratch_at V c (t.val - 1) hprev rr qq ⟨_, hR0⟩ ⟨_, hQ0⟩ (by show t.val / 16 * 1024 + rr.val = _; omega)
    (by show (t.val / 8 % 2) * 2048 + qq.val = _; omega), show (t.val - 1) % 8 + 1 = t.val % 8 by omega]

/-- After the accumulating stage the result array is x · wm + b2, entry by entry. -/
theorem out_final (c : Dev nD) :
    (Acc.dat (F := Ideal) V c).arrAt 3 cfg1.N = G (V c main_arg0) (V c main_v0) (V c main_v1) :=
  (Acc.dat (F := Ideal) V c).arrAt_eq_of_cover 3 (G (V c main_arg0) (V c main_v0) (V c main_v1))
    (fun t hf => flushed_eq V c t hf) AccBlocks.out_covered

end Cert.KernelIdeal.AccValue

end
-- ==== Proof.Bridge.lean ====
/- The kernel's result array is the specification. Region 1 leaves x · Wm + b2 with Wm the array region 0
   left, the masked weight, and b2 the bias vector recast as a row; entry by entry that is
   (∑ k, x(r, k) · maskedW(k, q)) + b(q). -/
import proofs.«148055_j68899865362757_2_alg».proof.Proof.Whole
import proofs.«148055_j68899865362757_2_alg».proof.Proof.MaskValue
import proofs.«148055_j68899865362757_2_alg».proof.Proof.AccValue
import proofs.«148055_j68899865362757_2_alg».proof.Proof.Spec
import Idealize.ShloMosaic.Lib.ValueLayout
import Idealize.ShloMosaic.Lib.Pipeline.Value

noncomputable section

open scoped BigOperators

namespace Cert.Bridge

open Cert.KernelIdeal Cert.KernelIdeal.Gen
open Idealize.ShloMosaic Idealize.ShloMosaic.TcCoe Idealize.ShloMosaic.ValueIdx Idealize.SL.Sem
open Cert.KernelIdeal.AccValue (G out_final)

/-- With the masked weight as the second factor and the bias recast as a row, the product plus the row is the
    specification: the row read at (0, q) is the bias at q. -/
theorem g_is_spec (X : (⟨2, ![2048, 4096]⟩ : Shape).Idx → EReal) (mask W : (⟨2, ![4096, 4096]⟩ : Shape).Idx → EReal)
    (b : (⟨1, ![4096]⟩ : Shape).Idx → EReal) (h : (⟨1, ![4096]⟩ : Shape).ShapeCasts ⟨2, ![1, 4096]⟩) :
    G X (Cert.Spec.maskedWArr mask W) (shapeCast ⟨2, ![1, 4096]⟩ b h) = Cert.Spec.outArr X mask W b := by
  funext i
  unfold G Cert.Spec.outArr Cert.Spec.out
  rw [shapeCast_a_1a_apply b h (0 : Fin 1) (i 1)]
  rfl

/-- What the run leaves in the result array, as a function of the launch memory's arguments. -/
theorem kernel_value (m : (ℓ : Loc nD τ sig) → Buf (Elt Ideal) ℓ) (ρ : Dev nD → PrngReg) (c : Dev nD) :
    (Acc.dat (F := Ideal) (Whole.Vacc m ρ) c).arrAt 3 cfg1.N
      = Cert.Spec.outArr (m ((c.tc : Thread nD τ).loc main_arg0)) (m ((c.tc : Thread nD τ).loc main_arg1))
          (m ((c.tc : Thread nD τ).loc main_arg2)) (m ((c.tc : Thread nD τ).loc main_arg3)) := by
  rw [out_final (Whole.Vacc m ρ) c, Whole.Vacc_main_arg0, Whole.Vacc_main_v0, Whole.Vacc_main_v1,
    MaskValue.wm_final (Whole.Vmask m ρ) c, Whole.Vmask_main_arg1, Whole.Vmask_main_arg2]
  exact g_is_spec _ _ _ _ _

end Cert.Bridge

end
-- ==== Proof.RefSpec.lean ====
import proofs.«148055_j68899865362757_2_alg».proof.Proof.Gen.ReferenceIdeal.Read
import proofs.«148055_j68899865362757_2_alg».proof.Proof.Spec

/-! The reference program's result, read entry by entry, is the specification: the product of x with the masked weight
    (W where the mask is not zero, 0 elsewhere) plus the bias along the columns. -/

noncomputable section

open scoped BigOperators

namespace Cert.RefSpec

open Idealize.ShloMosaic Idealize.ShloMosaic.ValueIdx Cert.ReferenceIdeal Cert.ReferenceIdeal.Read

/-- In the product's term k at entry (r, q), the left operand is read at (r, k). -/
theorem lidx_eq (r : Fin 2048) (q k : Fin 4096) : lidx_main_v3 (ix2 r q) k = ix2 r k := by
  funext a; match a with | ⟨0, _⟩ => rfl | ⟨1, _⟩ => rfl

/-- In the product's term k at entry (r, q), the right operand is read at (k, q). -/
theorem ridx_eq (r : Fin 2048) (q k : Fin 4096) : ridx_main_v3 (ix2 r q) k = ix2 k q := by
  funext a; match a with | ⟨0, _⟩ => rfl | ⟨1, _⟩ => rfl

/-- The bias broadcast to entry (r, q) is the bias at q. -/
theorem bidx_eq (r : Fin 2048) (q : Fin 4096) : idx_main_v4 (idx_main_v5 (ix2 r q)) = ix1 q := by
  funext a; match a with | ⟨0, _⟩ => rfl

/-- Selecting on "a is not 0" between w and 0. -/
theorem select_une_zero (a w : EReal) :
    Scalar.select (Ideal.cmp .une a 0) w 0 = if a ≠ 0 then w else 0 := by
  by_cases h : a = 0
  · have e : Ideal.cmp .une a 0 = 0#1 := by
      show BitVec.ofBool (decide (a ≠ 0)) = 0#1
      simp [h]
    rw [e, select_zero, if_neg (not_not.mpr h)]
  · have e : Ideal.cmp .une a 0 = 1#1 := by
      show BitVec.ofBool (decide (a ≠ 0)) = 1#1
      simp [h]
    rw [e, select_one, if_pos h]

/-- Entry (k, q) of the reference's masked weight. -/
theorem masked_apply (mask W : (⟨S4096x4096, .f32⟩ : BufTy).Contents (Elt Ideal)) (k q : Fin 4096) :
    val_main_v2 (F := Ideal) mask W (ix2 k q) = Cert.Spec.maskedW mask W k q := by
  rw [val_main_v2_apply, val_main_v1_apply, val_main_v0_apply, val_main_call0_v0_apply, val_main_cst_apply,
    val_main_cst_0_apply]
  show Scalar.select (Ideal.cmp .une (mask (ix2 k q)) (Ideal.ofBits .f32 0x00000000#32)) (W (ix2 k q))
      (Ideal.ofBits .f32 0x00000000#32) = _
  rw [Ideal.ofBits_zero_f32]
  exact select_une_zero (mask (ix2 k q)) (W (ix2 k q))

/-- The reference's result is the specification. -/
theorem ref_is_spec (x : (⟨S2048x4096, .f32⟩ : BufTy).Contents (Elt Ideal))
    (mask W : (⟨S4096x4096, .f32⟩ : BufTy).Contents (Elt Ideal)) (b : (⟨S4096, .f32⟩ : BufTy).Contents (Elt Ideal)) :
    val_main_v6 (F := Ideal) x mask W b = Cert.Spec.outArr x mask W b := by
  funext i
  obtain ⟨r, q, rfl⟩ : ∃ (r : Fin 2048) (q : Fin 4096), i = ix2 r q := ⟨i 0, i 1, eq_ix2 i⟩
  rw [val_main_v6_apply, val_main_v3_apply, val_main_v5_apply, val_main_v4_apply, bidx_eq]
  show (∑ k : Fin 4096, x (lidx_main_v3 (ix2 r q) k) * val_main_v2 (F := Ideal) mask W (ridx_main_v3 (ix2 r q) k))
      + b (ix1 q) = (∑ k : Fin 4096, x (ix2 r k) * Cert.Spec.maskedW mask W k q) + b (ix1 q)
  refine congrArg (fun t => t + b (ix1 q)) (Finset.sum_congr rfl fun k _ => ?_)
  rw [lidx_eq, ridx_eq, masked_apply]

end Cert.RefSpec

end
-- ==== Proof.lean ====
/- The claim: both programs of the kernel run to the end with their arguments unchanged (the run over the two
   regions and the host reshape between them), the reference runs likewise, the idealization rewrote nothing, and
   at the extended reals the kernel's result array and the reference's are the same function of the arguments:
   entry (r, q) is (∑ k, x(r, k) · (W(k, q) where mask(k, q) ≠ 0, else 0)) + b(q). The kernel reaches it by
   masking the weight once and summing the contraction in eight blocks of 512 from zero; the two sides differ only
   in the grouping of that finite sum. -/
import proofs.«148055_j68899865362757_2_alg».proof.Defs
import proofs.«148055_j68899865362757_2_alg».proof.Proof.Gen.Kernel
import proofs.«148055_j68899865362757_2_alg».proof.Proof.Gen.KernelIdeal
import proofs.«148055_j68899865362757_2_alg».proof.Proof.Gen.ReferenceIdeal
import proofs.«148055_j68899865362757_2_alg».proof.Proof.Gen.ReferenceIdeal.Read
import proofs.«148055_j68899865362757_2_alg».proof.Proof.Gen.Pre_finite_inputs
import proofs.«148055_j68899865362757_2_alg».proof.Proof.Bits.Whole
import proofs.«148055_j68899865362757_2_alg».proof.Proof.Whole
import proofs.«148055_j68899865362757_2_alg».proof.Proof.Bridge
import proofs.«148055_j68899865362757_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame m ρ

theorem frame_ideal : Cert.frame_KernelIdeal := fun m ρ _ => Cert.KernelIdeal.Whole.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the specification of the (agreeing) arguments. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Bridge.kernel_value m ρ c), (h c).2⟩)
      (Cert.KernelIdeal.Whole.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.RefSpec.ref_is_spec, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
